-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg12 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg8 : FVec F S64x64 .f32) (main_arg9 : FVec F S64x64 .f32) (main_arg10 : FVec F S64 .f32) (main_arg11 : FVec F S64x32 .f32) (main_arg12 : FVec F S32 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg11
  let main_cst_18 : FVec F S_ .f32 := constant S_ .f32 0x7F800000#32
  let main_v50 : FVec F S64x32 .f32 := broadcastInDim S64x32 ![] bcast_S_S64x32 main_cst_18
  fn_part3 (F := F) main_arg12 main_v48 main_v49 main_v50

def fn_part1 {F : FTy → Type} [FloatOps F] (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x32 .f32) (main_arg12 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x32 .f32) (main_arg12 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 76
  | .vmem => 39
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000x1, .f32⟩
  | .hbm, ⟨19, _⟩ => ⟨S_, .f32⟩
  | .hbm, ⟨20, _⟩ => ⟨S100000x1, .f32⟩
  | .hbm, ⟨21, _⟩ => ⟨S1600000x1, .i32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S1x32, .f32⟩
  | .hbm, ⟨75, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S64x32, .f32⟩
  | .local _ .vmem, ⟨36, _⟩ => ⟨S1x32, .f32⟩
  | .local _ .vmem, ⟨37, _⟩ => ⟨S5000x32, .f32⟩
  | .local _ .vmem, ⟨38, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg3_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem3_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S100000x32.size a
  hwx3_3 : ∀ i : grid3.Coords, EltTy.bits .f32 = 32 ∨ (Rect.block (s := S100000x32) S5000x32.size (cc3_transform_3 i) (hinb3_3 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S_, .f32⟩
  | .hbm, ⟨31, _⟩ => ⟨S1600000x1, .f32⟩
  | .hbm, ⟨32, _⟩ => ⟨S_, .f32⟩
  | .hbm, ⟨33, _⟩ => ⟨S100000x1, .f32⟩
  | .hbm, ⟨34, _⟩ => ⟨S1600000x1, .i32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000x1, .f32⟩
  | .hbm, ⟨65, _⟩ => ⟨S_, .f32⟩
  | .hbm, ⟨66, _⟩ => ⟨S100000x1, .f32⟩
  | .hbm, ⟨67, _⟩ => ⟨S1600000x1, .i32⟩
  | .hbm, ⟨68, _⟩ => ⟨S100000x1, .f32⟩
  | .hbm, ⟨69, _⟩ => ⟨S_, .f32⟩
  | .hbm, ⟨70, _⟩ => ⟨S100000x1, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .f32⟩
  | .hbm, ⟨92, _⟩ => ⟨S_, .f32⟩
  | .hbm, ⟨93, _⟩ => ⟨S100000x64, .f32⟩
  | .hbm, ⟨94, _⟩ => ⟨S1600000x1, .i32⟩
  | .hbm, ⟨95, _⟩ => ⟨S100000x64, .f32⟩
  | .hbm, ⟨96, _⟩ => ⟨S_, .f32⟩
  | .hbm, ⟨97, _⟩ => ⟨S1600000x1, .f32⟩
  | .hbm, ⟨98, _⟩ => ⟨S_, .f32⟩
  | .hbm, ⟨99, _⟩ => ⟨S100000x1, .f32⟩
  | .hbm, ⟨100, _⟩ => ⟨S1600000x1, .i32⟩
  | .hbm, ⟨101, _⟩ => ⟨S100000x1, .f32⟩
  | .hbm, ⟨102, _⟩ => ⟨S_, .f32⟩
  | .hbm, ⟨103, _⟩ => ⟨S100000x1, .f32⟩
  | .hbm, ⟨104, _⟩ => ⟨S100000x1, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S100000x64, .f32⟩
  | .hbm, ⟨112, _⟩ => ⟨S100000x64, .f32⟩
  | .hbm, ⟨113, _⟩ => ⟨S_, .f32⟩
  | .hbm, ⟨114, _⟩ => ⟨S100000x64, .f32⟩
  | .hbm, ⟨115, _⟩ => ⟨S100000x64, .f32⟩
  | .hbm, ⟨116, _⟩ => ⟨S100000x32, .f32⟩
  | .hbm, ⟨117, _⟩ => ⟨S1x32, .f32⟩
  | .hbm, ⟨118, _⟩ => ⟨S100000x32, .f32⟩
  | .hbm, ⟨119, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call1_cst : Ref sig .tc := ⟨.hbm, 80, rfl⟩
abbrev main_call1_v0 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_cst_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_15 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call2_cst : Ref sig .tc := ⟨.hbm, 113, rfl⟩
abbrev main_call2_v0 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.LibBroadcastReads.lean ====
/-
  The host's `broadcast_in_dim` in the few arrangements a node-by-feature computation uses, read at an index.

  * a vector [n] laid out as a column [n, 1] reads, at (r, 0), the vector at r;
  * a column [n, 1] broadcast over c lanes reads, at (r, k), the column at (r, 0);
  * a vector [c] laid out as a row [1, c] reads, at (0, k), the vector at k;
  * a row [1, c] broadcast over n rows reads, at (r, k), the row at (0, k);
  * a scalar broadcast to any shape reads, everywhere, the scalar.
-/
import Idealize.ShloMosaic.Lib.ValueIdx
import Idealize.ShloMosaic.Lib.Pipeline.Value

noncomputable section

namespace BroadcastReads

open Idealize.ShloMosaic Idealize.ShloMosaic.ValueIdx

variable {α : Type} {n c : Nat}

/-- In an axis of length n read at r: either n = 1 and r = 0, or the coordinate is r. -/
theorem coord_or_unit (r : Fin n) : r.val = if n = 1 then 0 else r.val := by
  by_cases h : n = 1
  · rw [if_pos h]; have := r.isLt; omega
  · rw [if_neg h]

/-- A vector laid out as a column. -/
theorem vec_to_col (v : (⟨1, ![n]⟩ : Shape).Idx → α) (h : (⟨1, ![n]⟩ : Shape).BroadcastsInDim ⟨2, ![n, 1]⟩ ![0])
    (r : Fin n) (u : Fin 1) : broadcastInDim ⟨2, ![n, 1]⟩ ![0] h v (ix2 r u) = v (ix1 r) :=
  broadcastInDim_apply ![0] h v (ix2 r u) (ix1 r) (fun a => match a with
    | ⟨0, _⟩ => by show r.val = if n = 1 then 0 else r.val; exact coord_or_unit r)

/-- A column broadcast over the lanes. -/
theorem col_to_lanes (v : (⟨2, ![n, 1]⟩ : Shape).Idx → α) (h : (⟨2, ![n, 1]⟩ : Shape).BroadcastsInDim ⟨2, ![n, c]⟩ ![0, 1])
    (r : Fin n) (k : Fin c) : broadcastInDim ⟨2, ![n, c]⟩ ![0, 1] h v (ix2 r k) = v (ix2 r (0 : Fin 1)) :=
  broadcastInDim_apply ![0, 1] h v (ix2 r k) (ix2 r (0 : Fin 1)) (fun a => match a with
    | ⟨0, _⟩ => by show r.val = if n = 1 then 0 else r.val; exact coord_or_unit r
    | ⟨1, _⟩ => by show 0 = if (1 : Nat) = 1 then 0 else k.val; rw [if_pos rfl])

/-- A vector laid out as a row. -/
theorem vec_to_row (v : (⟨1, ![c]⟩ : Shape).Idx → α) (h : (⟨1, ![c]⟩ : Shape).BroadcastsInDim ⟨2, ![1, c]⟩ ![1])
    (u : Fin 1) (k : Fin c) : broadcastInDim ⟨2, ![1, c]⟩ ![1] h v (ix2 u k) = v (ix1 k) :=
  broadcastInDim_apply ![1] h v (ix2 u k) (ix1 k) (fun a => match a with
    | ⟨0, _⟩ => by show k.val = if c = 1 then 0 else k.val; exact coord_or_unit k)

/-- A row broadcast over the rows. -/
theorem row_to_rows (v : (⟨2, ![1, c]⟩ : Shape).Idx → α) (h : (⟨2, ![1, c]⟩ : Shape).BroadcastsInDim ⟨2, ![n, c]⟩ ![0, 1])
    (r : Fin n) (k : Fin c) : broadcastInDim ⟨2, ![n, c]⟩ ![0, 1] h v (ix2 r k) = v (ix2 (0 : Fin 1) k) :=
  broadcastInDim_apply ![0, 1] h v (ix2 r k) (ix2 (0 : Fin 1) k) (fun a => match a with
    | ⟨0, _⟩ => by show 0 = if (1 : Nat) = 1 then 0 else r.val; rw [if_pos rfl]
    | ⟨1, _⟩ => by show k.val = if c = 1 then 0 else k.val; exact coord_or_unit k)

/-- A scalar broadcast to a shape. -/
theorem scalar_to (s : Shape) (z : (⟨0, ![]⟩ : Shape).Idx → α) (h : (⟨0, ![]⟩ : Shape).BroadcastsInDim s ![]) (i : s.Idx) :
    broadcastInDim s ![] h z i = z ix0 :=
  broadcastInDim_apply ![] h z i ix0 (fun a => a.elim0)

end BroadcastReads

end
-- ==== Proof.LibDenseLayer.lean ====
/-
  A dense layer and the gated activation, as whole-array functions over the extended reals.

  For a [P, K] array x, a [K, Q] array W and a row b of length Q the dense layer is
      dense x W b (p, q) = (∑ k, x (p, k) · W (k, q)) + b q,
  and the activation is y ↦ y · σ(y) with σ y = 1 / (1 + e^(-y)) (the logistic function, with its limits 0 and 1 at
  the two infinities).  A kernel spells the layer as a matrix product of the operands rounded to bf16, accumulated
  into zero, plus the row broadcast of a [1, Q] bias block; a host program spells it as a general dot product plus
  two broadcasts of a length-Q bias.  At the ideal instance a rounding is the identity and both products are the
  exact sum, so both spellings ARE `dense`.  Likewise the kernel's x · logistic x and the host's
  x · (1 / (1 + exp (-x))) are both the activation.

  An entry (p, q) of a layer depends on row p of x only: `dense_congr` and `mlp_congr` say so, which is what lets
  a block of rows be computed from a block of rows.
-/
import Idealize.ShloMosaic.Lib.ValueIdx
import Idealize.ShloMosaic.Lib.Pipeline.Value
import Idealize.ShloMosaic.PureOps.Ideal.Laws
import proofs.«171906_j55783035240818_1_alg».proof.Proof.LibPlainDot

noncomputable section

namespace DenseLayer

open Idealize.ShloMosaic Idealize.ShloMosaic.ValueIdx

variable {P P' K Q R : Nat}

/-- x · W + b, entry by entry. -/
def dense (x : (⟨2, ![P, K]⟩ : Shape).Idx → EReal) (W : (⟨2, ![K, Q]⟩ : Shape).Idx → EReal) (b : Fin Q → EReal) :
    (⟨2, ![P, Q]⟩ : Shape).Idx → EReal :=
  fun i => (∑ k : Fin K, x (ix2 (n0 := P) (i 0) k) * W (ix2 k (n1 := Q) (i 1))) + b (i 1)

theorem dense_ix2 (x : (⟨2, ![P, K]⟩ : Shape).Idx → EReal) (W : (⟨2, ![K, Q]⟩ : Shape).Idx → EReal) (b : Fin Q → EReal)
    (p : Fin P) (q : Fin Q) : dense x W b (ix2 p q) = (∑ k : Fin K, x (ix2 p k) * W (ix2 k q)) + b q := rfl

/-- The activation y · σ(y). -/
def act (y : EReal) : EReal := y * Ideal.logistic y

/-- The activation applied to every entry. -/
def actArr {s : Shape} (y : s.Idx → EReal) : s.Idx → EReal := fun i => act (y i)

/-- Two layers with the activation between them. -/
def mlp (x : (⟨2, ![P, K]⟩ : Shape).Idx → EReal) (W : (⟨2, ![K, Q]⟩ : Shape).Idx → EReal) (b : Fin Q → EReal)
    (W' : (⟨2, ![Q, R]⟩ : Shape).Idx → EReal) (b' : Fin R → EReal) : (⟨2, ![P, R]⟩ : Shape).Idx → EReal :=
  dense (actArr (dense x W b)) W' b'

/-- Entry (p, q) of a layer reads row p of its input, column q of its weights and entry q of its bias, and nothing else. -/
theorem dense_congr {x : (⟨2, ![P, K]⟩ : Shape).Idx → EReal} {x' : (⟨2, ![P', K]⟩ : Shape).Idx → EReal}
    {W W' : (⟨2, ![K, Q]⟩ : Shape).Idx → EReal} {b b' : Fin Q → EReal} {p : Fin P} {p' : Fin P'} {q : Fin Q}
    (hx : ∀ k, x (ix2 p k) = x' (ix2 p' k)) (hW : ∀ k, W (ix2 k q) = W' (ix2 k q)) (hb : b q = b' q) :
    dense x W b (ix2 p q) = dense x' W' b' (ix2 p' q) := by
  rw [dense_ix2, dense_ix2, hb]
  exact congrArg (· + b' q) (Finset.sum_congr rfl fun k _ => by rw [hx k, hW k])

/-- The same for two layers: entry (p, r) reads row p of the input. -/
theorem mlp_congr {x : (⟨2, ![P, K]⟩ : Shape).Idx → EReal} {x' : (⟨2, ![P', K]⟩ : Shape).Idx → EReal}
    {W W₀ : (⟨2, ![K, Q]⟩ : Shape).Idx → EReal} {b b₀ : Fin Q → EReal}
    {W' W₀' : (⟨2, ![Q, R]⟩ : Shape).Idx → EReal} {b' b₀' : Fin R → EReal} {p : Fin P} {p' : Fin P'} {r : Fin R}
    (hx : ∀ k, x (ix2 p k) = x' (ix2 p' k)) (hW : ∀ k q, W (ix2 k q) = W₀ (ix2 k q)) (hb : ∀ q, b q = b₀ q)
    (hW' : ∀ q, W' (ix2 q r) = W₀' (ix2 q r)) (hb' : b' r = b₀' r) :
    mlp x W b W' b' (ix2 p r) = mlp x' W₀ b₀ W₀' b₀' (ix2 p' r) :=
  dense_congr (fun q => congrArg act (dense_congr hx (fun k => hW k q) (hb q))) hW' hb'

/-- The float word of 1.0 is the real number one. -/
theorem ofBits_one : Ideal.ofBits .f32 0x3F800000#32 = 1 := by
  simp [Ideal.ofBits, Ideal.ieee, -EReal.coe_mul]; norm_num

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING of a layer: the product of the operands rounded to bf16, accumulated into zero, plus the row
    broadcast of a [1, Q] bias block. -/
theorem kernel_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hsc : (⟨2, ![1, Q]⟩ : Shape).ShapeCasts ⟨2, ![1, Q]⟩)
    (hbc : (⟨2, ![1, Q]⟩ : Shape).Broadcasts ⟨2, ![P, Q]⟩) :
    addf (matmul d none (truncf .bf16 x hr) (truncf .bf16 W hr) (constant ⟨2, ![P, Q]⟩ .f32 0x00000000#32))
      (broadcastTo ⟨2, ![P, Q]⟩ (shapeCast ⟨2, ![1, Q]⟩ b hsc) hbc)
    = dense x W (fun q => b (ix2 (0 : Fin 1) q)) := by
  funext j
  obtain ⟨p, q, rfl⟩ : ∃ (p : Fin P) (q : Fin Q), j = ix2 p q := ⟨j 0, j 1, eq_ix2 j⟩
  rw [shapeCast_self]
  show FloatOps.matmul d none (truncf .bf16 x hr) (truncf .bf16 W hr) (constant ⟨2, ![P, Q]⟩ .f32 0x00000000#32) (ix2 p q)
      + broadcastTo ⟨2, ![P, Q]⟩ b hbc (ix2 p q) = _
  rw [PlainDot.matmul_zero_apply hd, broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)]
  rfl

/-- THE HOST'S SPELLING of a layer: the general dot product plus a length-Q bias broadcast to [1, Q] and then to [P, Q]. -/
theorem host_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (Host.dotGeneral d none x W) (broadcastInDim ⟨2, ![P, Q]⟩ ![0, 1] h2 (broadcastInDim ⟨2, ![1, Q]⟩ ![1] h1 b))
    = dense x W (fun q => b (ix1 q)) := by
  funext j
  obtain ⟨p, q, rfl⟩ : ∃ (p : Fin P) (q : Fin Q), j = ix2 p q := ⟨j 0, j 1, eq_ix2 j⟩
  show FloatOps.dotGeneral d none .single x W (ix2 p q)
      + broadcastInDim ⟨2, ![P, Q]⟩ ![0, 1] h2 (broadcastInDim ⟨2, ![1, Q]⟩ ![1] h1 b) (ix2 p q) = _
  rw [PlainDot.dotGeneral_apply hd, broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q),
    broadcastInDim_apply ![1] h1 b (ix2 (0 : Fin 1) q) (ix1 q) (fun a => match a with
    | ⟨0, _⟩ => by show q.val = if Q = 1 then 0 else q.val; exact row_coord q)]
  rfl

/-- THE KERNEL'S SPELLING of the activation: y times the logistic of y. -/
theorem kernel_act {s : Shape} (y : FVec Ideal s .f32) : mulf y (logistic y) = actArr y := rfl

/-- THE HOST'S SPELLING of the activation: y times the quotient of one by one plus the exponential of minus y. -/
theorem host_act {s : Shape} (y : FVec Ideal s .f32) (h : (⟨0, ![]⟩ : Shape).BroadcastsInDim s ![]) :
    mulf y (Host.divf (broadcastInDim s ![] h (constant (F := Ideal) ⟨0, ![]⟩ .f32 0x3F800000#32))
      (addf (broadcastInDim s ![] h (constant (F := Ideal) ⟨0, ![]⟩ .f32 0x3F800000#32)) (Host.exp (Host.negf y))))
    = actArr y := by
  funext i
  have one : broadcastInDim s ![] h (constant (F := Ideal) ⟨0, ![]⟩ .f32 0x3F800000#32) i = (1 : EReal) :=
    (broadcastInDim_apply ![] h _ i ix0 (fun a => a.elim0)).trans ofBits_one
  show y i * Ideal.div (broadcastInDim s ![] h (constant (F := Ideal) ⟨0, ![]⟩ .f32 0x3F800000#32) i)
      (broadcastInDim s ![] h (constant (F := Ideal) ⟨0, ![]⟩ .f32 0x3F800000#32) i + Ideal.exp (-(y i))) = y i * Ideal.logistic (y i)
  rw [one]
  rfl

end DenseLayer

end
-- ==== Proof.SageSpec.lean ====
/-
  One mean-aggregating graph layer's dense stage, as whole-array functions over the extended reals.

  For a node-by-feature array of summed messages `msg` ([P, K]), a column `s` ([P, 1]) of per-node scale factors,
  node features `h` ([P, K]), two weight matrices `wl`, `wr` ([K, Q]) and a bias row `b`,
      layer a h wl wr b (p, q) = max ((∑ k, a (p, k) · wl (k, q)) + (∑ k, h (p, k) · wr (k, q)) + b q) 0
  with the aggregate `a` either the messages scaled by a column, `scale msg s (p, k) = msg (p, k) · s (p, 0)`, or divided
  by a column, `mean msg d (p, k) = msg (p, k) / d (p, 0)`.  Scaling by the reciprocals `1 / d` computed first IS
  dividing by `d` wherever `d` is not zero — on every extended real, finite or not, because the quotient is
  the product with the inverse.  The two programs add the bias at different places of the three-term sum; addition on
  the extended reals is commutative and associative, so the sums agree.  Entry (p, q) of a layer reads row p of its
  inputs only, which is what lets a block of rows be computed from blocks of rows.
-/
import Idealize.ShloMosaic.Lib.ValueIdx
import Idealize.ShloMosaic.Lib.Pipeline.Value
import Idealize.ShloMosaic.PureOps.Ideal.Laws
import proofs.«171906_j55783035240818_1_alg».proof.Proof.LibPlainDot
import proofs.«171906_j55783035240818_1_alg».proof.Proof.LibKeepDims
import proofs.«171906_j55783035240818_1_alg».proof.Proof.LibBroadcastReads
import proofs.«171906_j55783035240818_1_alg».proof.Proof.LibDenseLayer

noncomputable section

namespace SageSpec

open Idealize.ShloMosaic Idealize.ShloMosaic.ValueIdx

variable {P P' K Q : Nat}

/-- The word of +0.0, kept as a word: both programs compare against the same one. -/
abbrev zeroWord : EReal := Ideal.ofBits .f32 0x00000000#32

/-- The messages scaled node by node by a column of factors. -/
def scale (msg : (⟨2, ![P, K]⟩ : Shape).Idx → EReal) (s : (⟨2, ![P, 1]⟩ : Shape).Idx → EReal) :
    (⟨2, ![P, K]⟩ : Shape).Idx → EReal :=
  fun i => msg i * s (ix2 (n0 := P) (i 0) (0 : Fin 1))

/-- The messages divided node by node by a column of divisors. -/
def mean (msg : (⟨2, ![P, K]⟩ : Shape).Idx → EReal) (d : (⟨2, ![P, 1]⟩ : Shape).Idx → EReal) :
    (⟨2, ![P, K]⟩ : Shape).Idx → EReal :=
  fun i => Ideal.div (msg i) (d (ix2 (n0 := P) (i 0) (0 : Fin 1)))

/-- The dense stage: aggregate times one weight matrix, plus features times the other, plus the bias, clamped below. -/
def layer (a h : (⟨2, ![P, K]⟩ : Shape).Idx → EReal) (wl wr : (⟨2, ![K, Q]⟩ : Shape).Idx → EReal) (b : Fin Q → EReal) :
    (⟨2, ![P, Q]⟩ : Shape).Idx → EReal :=
  fun i => max ((∑ k : Fin K, a (ix2 (n0 := P) (i 0) k) * wl (ix2 k (n1 := Q) (i 1)))
    + (∑ k : Fin K, h (ix2 (n0 := P) (i 0) k) * wr (ix2 k (n1 := Q) (i 1))) + b (i 1)) zeroWord

theorem layer_ix2 (a h : (⟨2, ![P, K]⟩ : Shape).Idx → EReal) (wl wr : (⟨2, ![K, Q]⟩ : Shape).Idx → EReal) (b : Fin Q → EReal)
    (p : Fin P) (q : Fin Q) :
    layer a h wl wr b (ix2 p q) = max ((∑ k : Fin K, a (ix2 p k) * wl (ix2 k q)) + (∑ k : Fin K, h (ix2 p k) * wr (ix2 k q)) + b q) zeroWord := rfl

theorem scale_ix2 (msg : (⟨2, ![P, K]⟩ : Shape).Idx → EReal) (s : (⟨2, ![P, 1]⟩ : Shape).Idx → EReal) (p : Fin P) (k : Fin K) :
    scale msg s (ix2 p k) = msg (ix2 p k) * s (ix2 p (0 : Fin 1)) := rfl

theorem mean_ix2 (msg : (⟨2, ![P, K]⟩ : Shape).Idx → EReal) (d : (⟨2, ![P, 1]⟩ : Shape).Idx → EReal) (p : Fin P) (k : Fin K) :
    mean msg d (ix2 p k) = Ideal.div (msg (ix2 p k)) (d (ix2 p (0 : Fin 1))) := rfl

/-- ROW LOCALITY: entry (p, q) of a layer over scaled messages reads row p of the messages, of the factors and of the
    features, column q of the weights and entry q of the bias, and nothing else. -/
theorem layer_scale_congr
    {msg : (⟨2, ![P, K]⟩ : Shape).Idx → EReal} {s : (⟨2, ![P, 1]⟩ : Shape).Idx → EReal} {h : (⟨2, ![P, K]⟩ : Shape).Idx → EReal}
    {msg' : (⟨2, ![P', K]⟩ : Shape).Idx → EReal} {s' : (⟨2, ![P', 1]⟩ : Shape).Idx → EReal} {h' : (⟨2, ![P', K]⟩ : Shape).Idx → EReal}
    {wl wr wl' wr' : (⟨2, ![K, Q]⟩ : Shape).Idx → EReal} {b b' : Fin Q → EReal} {p : Fin P} {p' : Fin P'} {q : Fin Q}
    (hm : ∀ k, msg (ix2 p k) = msg' (ix2 p' k)) (hs : s (ix2 p (0 : Fin 1)) = s' (ix2 p' (0 : Fin 1)))
    (hh : ∀ k, h (ix2 p k) = h' (ix2 p' k)) (hwl : ∀ k, wl (ix2 k q) = wl' (ix2 k q)) (hwr : ∀ k, wr (ix2 k q) = wr' (ix2 k q))
    (hb : b q = b' q) :
    layer (scale msg s) h wl wr b (ix2 p q) = layer (scale msg' s') h' wl' wr' b' (ix2 p' q) := by
  rw [layer_ix2, layer_ix2, hb]
  have e1 : (∑ k : Fin K, scale msg s (ix2 p k) * wl (ix2 k q)) = ∑ k : Fin K, scale msg' s' (ix2 p' k) * wl' (ix2 k q) :=
    Finset.sum_congr rfl fun k _ => by rw [scale_ix2, scale_ix2, hm k, hs, hwl k]
  have e2 : (∑ k : Fin K, h (ix2 p k) * wr (ix2 k q)) = ∑ k : Fin K, h' (ix2 p' k) * wr' (ix2 k q) :=
    Finset.sum_congr rfl fun k _ => by rw [hh k, hwr k]
  rw [e1, e2]

/-- Scaling by the reciprocals of a column that is nowhere zero is dividing by that column. -/
theorem scale_recip (msg : (⟨2, ![P, K]⟩ : Shape).Idx → EReal) (d r : (⟨2, ![P, 1]⟩ : Shape).Idx → EReal)
    (hr : ∀ p : Fin P, r (ix2 p (0 : Fin 1)) = Ideal.div 1 (d (ix2 p (0 : Fin 1))))
    (hd : ∀ p : Fin P, d (ix2 p (0 : Fin 1)) ≠ 0) : scale msg r = mean msg d := by
  funext i
  obtain ⟨p, k, rfl⟩ : ∃ (p : Fin P) (k : Fin K), i = ix2 p k := ⟨i 0, i 1, eq_ix2 i⟩
  rw [scale_ix2, mean_ix2, hr p, Ideal.div, Ideal.div, if_neg (hd p), if_neg (hd p), one_mul]

/-- THE KERNEL'S SPELLING of the dense stage: the messages times the lane broadcast of the factor column, rounded to
    bf16, times the rounded weights into a zero accumulator; plus the same product of the features; plus the row
    broadcast of a [1, Q] bias block; the maximum with a splat zero. -/
theorem kernel_layer {d : DotDims ⟨2, ![P, K]⟩ ⟨2, ![K, Q]⟩ ⟨2, ![P, Q]⟩} (hd : PlainDot.IsPlain d)
    (msg : FVec Ideal ⟨2, ![P, K]⟩ .f32) (s : FVec Ideal ⟨2, ![P, 1]⟩ .f32) (h : FVec Ideal ⟨2, ![P, K]⟩ .f32)
    (wl wr : FVec Ideal ⟨2, ![K, Q]⟩ .f32) (b : FVec Ideal ⟨2, ![1, Q]⟩ .f32)
    (hr : FTy.bits .bf16 < FTy.bits .f32)
    (c1 : (⟨2, ![P, K]⟩ : Shape).ShapeCasts ⟨2, ![P, K]⟩) (c2 : (⟨2, ![P, 1]⟩ : Shape).ShapeCasts ⟨2, ![P, 1]⟩)
    (c3 : (⟨2, ![1, Q]⟩ : Shape).ShapeCasts ⟨2, ![1, Q]⟩)
    (bs : (⟨2, ![P, 1]⟩ : Shape).Broadcasts ⟨2, ![P, K]⟩) (bb : (⟨2, ![1, Q]⟩ : Shape).Broadcasts ⟨2, ![P, Q]⟩) :
    maximumf (addf (addf
        (matmul d none (truncf .bf16 (mulf (shapeCast ⟨2, ![P, K]⟩ msg c1) (broadcastTo ⟨2, ![P, K]⟩ (shapeCast ⟨2, ![P, 1]⟩ s c2) bs)) hr)
          (truncf .bf16 wl hr) (constant ⟨2, ![P, Q]⟩ .f32 0x00000000#32))
        (matmul d none (truncf .bf16 h hr) (truncf .bf16 wr hr) (constant ⟨2, ![P, Q]⟩ .f32 0x00000000#32)))
        (broadcastTo ⟨2, ![P, Q]⟩ (shapeCast ⟨2, ![1, Q]⟩ b c3) bb))
      (broadcast ⟨2, ![P, Q]⟩ (Scalar.ofBits (F := Ideal) .f32 0x00000000#32))
    = layer (scale msg s) h wl wr (fun q => b (ix2 (0 : Fin 1) q)) := by
  funext j
  obtain ⟨p, q, rfl⟩ : ∃ (p : Fin P) (q : Fin Q), j = ix2 p q := ⟨j 0, j 1, eq_ix2 j⟩
  rw [shapeCast_self, shapeCast_self, shapeCast_self]
  show max (FloatOps.matmul d none (truncf .bf16 (mulf msg (broadcastTo ⟨2, ![P, K]⟩ s bs)) hr) (truncf .bf16 wl hr)
        (constant ⟨2, ![P, Q]⟩ .f32 0x00000000#32) (ix2 p q)
      + FloatOps.matmul d none (truncf .bf16 h hr) (truncf .bf16 wr hr) (constant ⟨2, ![P, Q]⟩ .f32 0x00000000#32) (ix2 p q)
      + broadcastTo ⟨2, ![P, Q]⟩ b bb (ix2 p q)) zeroWord = _
  rw [PlainDot.matmul_zero_apply hd, PlainDot.matmul_zero_apply hd,
    broadcastTo_apply b bb (ix2 p q) (ix2 (0 : Fin 1) q) (fun a => match a with
      | ⟨0, _⟩ => by show 0 = if (1 : Nat) = 1 then 0 else p.val; rw [if_pos rfl]
      | ⟨1, _⟩ => by show q.val = if Q = 1 then 0 else q.val; exact DenseLayer.row_coord q), layer_ix2]
  have e1 : (∑ k : Fin K, truncf .bf16 (mulf msg (broadcastTo ⟨2, ![P, K]⟩ s bs)) hr (ix2 p k) * truncf .bf16 wl hr (ix2 k q))
      = ∑ k : Fin K, scale msg s (ix2 p k) * wl (ix2 k q) :=
    Finset.sum_congr rfl fun k _ => by
      show msg (ix2 p k) * broadcastTo ⟨2, ![P, K]⟩ s bs (ix2 p k) * wl (ix2 k q) = _
      rw [KeepDims.broadcastTo_a1_ab_apply, scale_ix2]
  rw [e1]
  rfl

/-- THE HOST'S SPELLING of the dense stage: the messages divided by the lane broadcast of the divisor column, a general
    dot product with one weight matrix, plus a length-Q bias broadcast to [1, Q] and to [P, Q], plus the dot product of
    the features with the other matrix, and the maximum with a broadcast zero constant. -/
theorem host_layer {d : DotDims ⟨2, ![P, K]⟩ ⟨2, ![K, Q]⟩ ⟨2, ![P, Q]⟩} (hd : PlainDot.IsPlain d)
    (msg : FVec Ideal ⟨2, ![P, K]⟩ .f32) (dv : FVec Ideal ⟨2, ![P, 1]⟩ .f32) (h : FVec Ideal ⟨2, ![P, K]⟩ .f32)
    (wl wr : FVec Ideal ⟨2, ![K, Q]⟩ .f32) (b : FVec Ideal ⟨1, ![Q]⟩ .f32)
    (hc : (⟨2, ![P, 1]⟩ : Shape).BroadcastsInDim ⟨2, ![P, K]⟩ ![0, 1])
    (h1 : (⟨1, ![Q]⟩ : Shape).BroadcastsInDim ⟨2, ![1, Q]⟩ ![1])
    (h2 : (⟨2, ![1, Q]⟩ : Shape).BroadcastsInDim ⟨2, ![P, Q]⟩ ![0, 1])
    (h0 : (⟨0, ![]⟩ : Shape).BroadcastsInDim ⟨2, ![P, Q]⟩ ![]) :
    maximumf (addf (addf
        (Host.dotGeneral d none (Host.divf msg (broadcastInDim ⟨2, ![P, K]⟩ ![0, 1] hc dv)) wl)
        (broadcastInDim ⟨2, ![P, Q]⟩ ![0, 1] h2 (broadcastInDim ⟨2, ![1, Q]⟩ ![1] h1 b)))
        (Host.dotGeneral d none h wr))
      (broadcastInDim ⟨2, ![P, Q]⟩ ![] h0 (constant (F := Ideal) ⟨0, ![]⟩ .f32 0x00000000#32))
    = layer (mean msg dv) h wl wr (fun q => b (ix1 q)) := by
  funext j
  obtain ⟨p, q, rfl⟩ : ∃ (p : Fin P) (q : Fin Q), j = ix2 p q := ⟨j 0, j 1, eq_ix2 j⟩
  show max (FloatOps.dotGeneral d none .single (Host.divf msg (broadcastInDim ⟨2, ![P, K]⟩ ![0, 1] hc dv)) wl (ix2 p q)
      + broadcastInDim ⟨2, ![P, Q]⟩ ![0, 1] h2 (broadcastInDim ⟨2, ![1, Q]⟩ ![1] h1 b) (ix2 p q)
      + FloatOps.dotGeneral d none .single h wr (ix2 p q))
      (broadcastInDim ⟨2, ![P, Q]⟩ ![] h0 (constant (F := Ideal) ⟨0, ![]⟩ .f32 0x00000000#32) (ix2 p q)) = _
  rw [PlainDot.dotGeneral_apply hd, PlainDot.dotGeneral_apply hd, BroadcastReads.row_to_rows, BroadcastReads.vec_to_row,
    BroadcastReads.scalar_to, layer_ix2, add_right_comm]
  have e1 : (∑ k : Fin K, Host.divf msg (broadcastInDim ⟨2, ![P, K]⟩ ![0, 1] hc dv) (ix2 p k) * wl (ix2 k q))
      = ∑ k : Fin K, mean msg dv (ix2 p k) * wl (ix2 k q) :=
    Finset.sum_congr rfl fun k _ => by
      show Ideal.div (msg (ix2 p k)) (broadcastInDim ⟨2, ![P, K]⟩ ![0, 1] hc dv (ix2 p k)) * wl (ix2 k q) = _
      rw [BroadcastReads.col_to_lanes, mean_ix2]
  rw [e1]
  rfl

end SageSpec

end
-- ==== Proof.Sage0.lean ====
/-
  Layer 1's dense stage, from blocks of rows to the whole array.

  The grid has twenty points; point t stages rows 5000·t … 5000·t + 4999 of the summed messages, of the reciprocal
  degrees and of the node features, and the whole of the two weight matrices and of the bias row, and writes back rows
  5000·t … 5000·t + 4999 of the result.  An entry (p, q) of the dense stage reads row p of its inputs only, so the
  block a point writes back is that block of ONE function of the whole arrays; the twenty blocks tile the 100000 rows,
  so after the region the result array holds that function everywhere.  The arrays are taken as the region finds
  them, whatever they hold.
-/
import proofs.«171906_j55783035240818_1_alg».proof.Proof.Gen.KernelIdeal.Frame
import proofs.«171906_j55783035240818_1_alg».proof.Proof.SageSpec
import Idealize.ShloMosaic.Lib.Pipeline.Value
import Idealize.ShloMosaic.Lib.ValueIdx

set_option maxRecDepth 16384

noncomputable section

namespace Cert.KernelIdeal.Sage0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block product contracts the lanes of its left operand against the rows of its right one, nothing else. -/
theorem plain : PlainDot.IsPlain dot_S5000x64_S64x64_S5000x64_1_0_0_1_n_n := ⟨rfl, rfl, rfl, rfl, rfl, rfl⟩

/-- What the body stores, of the blocks it loaded: the dense stage of those blocks. -/
theorem body_value (x0 : Vec Ideal S5000x64 .f32) (x1 : Vec Ideal S5000x1 .f32) (x2 : Vec Ideal S5000x64 .f32)
    (x3 x4 : Vec Ideal S64x64 .f32) (x5 : Vec Ideal S1x64 .f32) :
    k0_pay1 x0 x1 x2 x3 x4 x5 = SageSpec.layer (SageSpec.scale x0 x1) x2 x3 x4 (fun q => x5 (ix2 (0 : Fin 1) q)) := by
  unfold k0_pay1
  exact SageSpec.kernel_layer plain x0 x1 x2 x3 x4 x5 _ _ _ _ _ _

/-- The dense stage of the whole arrays as the region finds them. -/
def whole (c : Dev nD) : S100000x64.Idx → EReal :=
  SageSpec.layer (SageSpec.scale (V c main_v21) (V c main_v11)) (V c main_arg0) (V c main_arg2) (V c main_arg3) (fun q => V c main_v22 (ix2 (0 : Fin 1) q))

/-- Where each window's block sits at point t: the three row-blocked inputs and the output at block row t, the weights and
    the bias at the origin. -/
theorem block_origins : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every block row is some point's. -/
theorem block_onto : ∀ q0 : Fin 20, ∃ t : Fin cfg0.N, t.val = q0.val :=
  (by decide +kernel : ∀ q0 : Fin 20, ∃ t : Fin grid0.N, t.val = q0.val)

/-- WHAT POINT t WRITES BACK is block t of the dense stage of the whole arrays. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero origin]
  simp only [View.ld_unit_zero (S := S5000x64) origin, View.ld_unit_zero (S := S5000x1) origin,
    View.ld_unit_zero (S := S64x64) origin, View.ld_unit_zero (S := S1x64) origin]
  rw [body_value]
  obtain ⟨e00, e01, e10, e11, e20, e21, e30, e31, e40, e41, e50, e51, e60, e61⟩ := block_origins t
  have ht : t.val < 20 := lt_of_lt_of_eq t.isLt N_0
  funext j
  obtain ⟨r, q, rfl⟩ : ∃ (r : Fin 5000) (q : Fin 64), j = ix2 r q := ⟨j 0, j 1, eq_ix2 j⟩
  have hr : r.val < 5000 := r.isLt
  have hq : q.val < 64 := q.isLt
  show SageSpec.layer (SageSpec.scale (iblk0 V c 0 t) (iblk0 V c 1 t)) (iblk0 V c 2 t) (iblk0 V c 3 t) (iblk0 V c 4 t)
      (fun q => iblk0 V c 5 t (ix2 (0 : Fin 1) q)) (ix2 r q) = whole V c (((cfg0.win 6).blk t).view.emb (ix2 r q))
  have hemb : ((cfg0.win 6).blk t).view.emb (ix2 r q) = ix2 (⟨t.val * 5000 + r.val, by omega⟩ : Fin 100000) q := by
    funext a; apply Fin.ext
    match a with
    | ⟨0, _⟩ => show win0_6.index t (0 : Fin 2) * 5000 + 1 * r.val = t.val * 5000 + r.val; omega
    | ⟨1, _⟩ => show win0_6.index t (1 : Fin 2) * 64 + 1 * q.val = q.val; omega
  rw [hemb]
  unfold whole
  refine SageSpec.layer_scale_congr (fun k => ?_) ?_ (fun k => ?_) (fun k => ?_) (fun k => ?_) ?_
  · have hk : k.val < 64 := k.isLt
    show V c main_v21 (((cfg0.win 0).blk t).view.emb (ix2 r k)) = V c main_v21 (ix2 _ k)
    refine congrArg _ (funext fun a => Fin.ext ?_)
    match a with
    | ⟨0, _⟩ => show win0_0.index t (0 : Fin 2) * 5000 + 1 * r.val = t.val * 5000 + r.val; omega
    | ⟨1, _⟩ => show win0_0.index t (1 : Fin 2) * 64 + 1 * k.val = k.val; omega
  · show V c main_v11 (((cfg0.win 1).blk t).view.emb (ix2 r (0 : Fin 1))) = V c main_v11 (ix2 _ (0 : Fin 1))
    refine congrArg _ (funext fun a => Fin.ext ?_)
    match a with
    | ⟨0, _⟩ => show win0_1.index t (0 : Fin 2) * 5000 + 1 * r.val = t.val * 5000 + r.val; omega
    | ⟨1, _⟩ => show win0_1.index t (1 : Fin 2) * 1 + 1 * 0 = 0; omega
  · have hk : k.val < 64 := k.isLt
    show V c main_arg0 (((cfg0.win 2).blk t).view.emb (ix2 r k)) = V c main_arg0 (ix2 _ k)
    refine congrArg _ (funext fun a => Fin.ext ?_)
    match a with
    | ⟨0, _⟩ => show win0_2.index t (0 : Fin 2) * 5000 + 1 * r.val = t.val * 5000 + r.val; omega
    | ⟨1, _⟩ => show win0_2.index t (1 : Fin 2) * 64 + 1 * k.val = k.val; omega
  · have hk : k.val < 64 := k.isLt
    show V c main_arg2 (((cfg0.win 3).blk t).view.emb (ix2 k q)) = V c main_arg2 (ix2 k q)
    refine congrArg _ (funext fun a => Fin.ext ?_)
    match a with
    | ⟨0, _⟩ => show win0_3.index t (0 : Fin 2) * 64 + 1 * k.val = k.val; omega
    | ⟨1, _⟩ => show win0_3.index t (1 : Fin 2) * 64 + 1 * q.val = q.val; omega
  · have hk : k.val < 64 := k.isLt
    show V c main_arg3 (((cfg0.win 4).blk t).view.emb (ix2 k q)) = V c main_arg3 (ix2 k q)
    refine congrArg _ (funext fun a => Fin.ext ?_)
    match a with
    | ⟨0, _⟩ => show win0_4.index t (0 : Fin 2) * 64 + 1 * k.val = k.val; omega
    | ⟨1, _⟩ => show win0_4.index t (1 : Fin 2) * 64 + 1 * q.val = q.val; omega
  · show V c main_v22 (((cfg0.win 5).blk t).view.emb (ix2 (0 : Fin 1) q)) = V c main_v22 (ix2 (0 : Fin 1) q)
    refine congrArg _ (funext fun a => Fin.ext ?_)
    match a with
    | ⟨0, _⟩ => show win0_5.index t (0 : Fin 2) * 1 + 1 * 0 = 0; omega
    | ⟨1, _⟩ => show win0_5.index t (1 : Fin 2) * 64 + 1 * q.val = q.val; omega

/-- An index of the result array is in point t's block iff each coordinate is in the block's range on its axis. -/
theorem mem_block (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v23).slice (win0_6.rect t)).set ↔ _
  rw [View.set_slice_whole, Rect.mem_set_unit]
  exact Iff.rfl

/-- The twenty blocks tile the rows: row p is in the block of point p / 5000. -/
theorem covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := block_onto ⟨(i 0).val / 5000, by omega⟩
  have ht' : t.val = (i 0).val / 5000 := ht
  obtain ⟨e00, e01, e10, e11, e20, e21, e30, e31, e40, e41, e50, e51, e60, e61⟩ := block_origins t
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE RESULT ARRAY after the region: the dense stage of the arrays as the region found them. -/
theorem final (c : Dev nD) : (dat0 V c).arrAt 6 cfg0.N = whole V c :=
  (dat0 V c).arrAt_eq_of_cover 6 (whole V c) (fun t _ => flushed_eq V c t) (covered)

end Cert.KernelIdeal.Sage0

end
-- ==== Proof.Sage1.lean ====
/-
  Layer 2's dense stage, from blocks of rows to the whole array.

  The grid has twenty points; point t stages rows 5000·t … 5000·t + 4999 of the summed messages, of the reciprocal
  degrees and of the node features, and the whole of the two weight matrices and of the bias row, and writes back rows
  5000·t … 5000·t + 4999 of the result.  An entry (p, q) of the dense stage reads row p of its inputs only, so the
  block a point writes back is that block of ONE function of the whole arrays; the twenty blocks tile the 100000 rows,
  so after the region the result array holds that function everywhere.  The arrays are taken as the region finds
  them, whatever they hold.
-/
import proofs.«171906_j55783035240818_1_alg».proof.Proof.Gen.KernelIdeal.Frame
import proofs.«171906_j55783035240818_1_alg».proof.Proof.SageSpec
import Idealize.ShloMosaic.Lib.Pipeline.Value
import Idealize.ShloMosaic.Lib.ValueIdx

set_option maxRecDepth 16384

noncomputable section

namespace Cert.KernelIdeal.Sage1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block product contracts the lanes of its left operand against the rows of its right one, nothing else. -/
theorem plain : PlainDot.IsPlain dot_S5000x64_S64x64_S5000x64_1_0_0_1_n_n := ⟨rfl, rfl, rfl, rfl, rfl, rfl⟩

/-- What the body stores, of the blocks it loaded: the dense stage of those blocks. -/
theorem body_value (x0 : Vec Ideal S5000x64 .f32) (x1 : Vec Ideal S5000x1 .f32) (x2 : Vec Ideal S5000x64 .f32)
    (x3 x4 : Vec Ideal S64x64 .f32) (x5 : Vec Ideal S1x64 .f32) :
    k1_pay1 x0 x1 x2 x3 x4 x5 = SageSpec.layer (SageSpec.scale x0 x1) x2 x3 x4 (fun q => x5 (ix2 (0 : Fin 1) q)) := by
  unfold k1_pay1
  rw [shapeCast_self x2]
  exact SageSpec.kernel_layer plain x0 x1 x2 x3 x4 x5 _ _ _ _ _ _

/-- The dense stage of the whole arrays as the region finds them. -/
def whole (c : Dev nD) : S100000x64.Idx → EReal :=
  SageSpec.layer (SageSpec.scale (V c main_v33) (V c main_v11)) (V c main_v23) (V c main_arg5) (V c main_arg6) (fun q => V c main_v34 (ix2 (0 : Fin 1) q))

/-- Where each window's block sits at point t: the three row-blocked inputs and the output at block row t, the weights and
    the bias at the origin. -/
theorem block_origins : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every block row is some point's. -/
theorem block_onto : ∀ q0 : Fin 20, ∃ t : Fin cfg1.N, t.val = q0.val :=
  (by decide +kernel : ∀ q0 : Fin 20, ∃ t : Fin grid1.N, t.val = q0.val)

/-- WHAT POINT t WRITES BACK is block t of the dense stage of the whole arrays. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero origin]
  simp only [View.ld_unit_zero (S := S5000x64) origin, View.ld_unit_zero (S := S5000x1) origin,
    View.ld_unit_zero (S := S64x64) origin, View.ld_unit_zero (S := S1x64) origin]
  rw [body_value]
  obtain ⟨e00, e01, e10, e11, e20, e21, e30, e31, e40, e41, e50, e51, e60, e61⟩ := block_origins t
  have ht : t.val < 20 := lt_of_lt_of_eq t.isLt N_1
  funext j
  obtain ⟨r, q, rfl⟩ : ∃ (r : Fin 5000) (q : Fin 64), j = ix2 r q := ⟨j 0, j 1, eq_ix2 j⟩
  have hr : r.val < 5000 := r.isLt
  have hq : q.val < 64 := q.isLt
  show SageSpec.layer (SageSpec.scale (iblk1 V c 0 t) (iblk1 V c 1 t)) (iblk1 V c 2 t) (iblk1 V c 3 t) (iblk1 V c 4 t)
      (fun q => iblk1 V c 5 t (ix2 (0 : Fin 1) q)) (ix2 r q) = whole V c (((cfg1.win 6).blk t).view.emb (ix2 r q))
  have hemb : ((cfg1.win 6).blk t).view.emb (ix2 r q) = ix2 (⟨t.val * 5000 + r.val, by omega⟩ : Fin 100000) q := by
    funext a; apply Fin.ext
    match a with
    | ⟨0, _⟩ => show win1_6.index t (0 : Fin 2) * 5000 + 1 * r.val = t.val * 5000 + r.val; omega
    | ⟨1, _⟩ => show win1_6.index t (1 : Fin 2) * 64 + 1 * q.val = q.val; omega
  rw [hemb]
  unfold whole
  refine SageSpec.layer_scale_congr (fun k => ?_) ?_ (fun k => ?_) (fun k => ?_) (fun k => ?_) ?_
  · have hk : k.val < 64 := k.isLt
    show V c main_v33 (((cfg1.win 0).blk t).view.emb (ix2 r k)) = V c main_v33 (ix2 _ k)
    refine congrArg _ (funext fun a => Fin.ext ?_)
    match a with
    | ⟨0, _⟩ => show win1_0.index t (0 : Fin 2) * 5000 + 1 * r.val = t.val * 5000 + r.val; omega
    | ⟨1, _⟩ => show win1_0.index t (1 : Fin 2) * 64 + 1 * k.val = k.val; omega
  · show V c main_v11 (((cfg1.win 1).blk t).view.emb (ix2 r (0 : Fin 1))) = V c main_v11 (ix2 _ (0 : Fin 1))
    refine congrArg _ (funext fun a => Fin.ext ?_)
    match a with
    | ⟨0, _⟩ => show win1_1.index t (0 : Fin 2) * 5000 + 1 * r.val = t.val * 5000 + r.val; omega
    | ⟨1, _⟩ => show win1_1.index t (1 : Fin 2) * 1 + 1 * 0 = 0; omega
  · have hk : k.val < 64 := k.isLt
    show V c main_v23 (((cfg1.win 2).blk t).view.emb (ix2 r k)) = V c main_v23 (ix2 _ k)
    refine congrArg _ (funext fun a => Fin.ext ?_)
    match a with
    | ⟨0, _⟩ => show win1_2.index t (0 : Fin 2) * 5000 + 1 * r.val = t.val * 5000 + r.val; omega
    | ⟨1, _⟩ => show win1_2.index t (1 : Fin 2) * 64 + 1 * k.val = k.val; omega
  · have hk : k.val < 64 := k.isLt
    show V c main_arg5 (((cfg1.win 3).blk t).view.emb (ix2 k q)) = V c main_arg5 (ix2 k q)
    refine congrArg _ (funext fun a => Fin.ext ?_)
    match a with
    | ⟨0, _⟩ => show win1_3.index t (0 : Fin 2) * 64 + 1 * k.val = k.val; omega
    | ⟨1, _⟩ => show win1_3.index t (1 : Fin 2) * 64 + 1 * q.val = q.val; omega
  · have hk : k.val < 64 := k.isLt
    show V c main_arg6 (((cfg1.win 4).blk t).view.emb (ix2 k q)) = V c main_arg6 (ix2 k q)
    refine congrArg _ (funext fun a => Fin.ext ?_)
    match a with
    | ⟨0, _⟩ => show win1_4.index t (0 : Fin 2) * 64 + 1 * k.val = k.val; omega
    | ⟨1, _⟩ => show win1_4.index t (1 : Fin 2) * 64 + 1 * q.val = q.val; omega
  · show V c main_v34 (((cfg1.win 5).blk t).view.emb (ix2 (0 : Fin 1) q)) = V c main_v34 (ix2 (0 : Fin 1) q)
    refine congrArg _ (funext fun a => Fin.ext ?_)
    match a with
    | ⟨0, _⟩ => show win1_5.index t (0 : Fin 2) * 1 + 1 * 0 = 0; omega
    | ⟨1, _⟩ => show win1_5.index t (1 : Fin 2) * 64 + 1 * q.val = q.val; omega

/-- An index of the result array is in point t's block iff each coordinate is in the block's range on its axis. -/
theorem mem_block (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v35).slice (win1_6.rect t)).set ↔ _
  rw [View.set_slice_whole, Rect.mem_set_unit]
  exact Iff.rfl

/-- The twenty blocks tile the rows: row p is in the block of point p / 5000. -/
theorem covered (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := block_onto ⟨(i 0).val / 5000, by omega⟩
  have ht' : t.val = (i 0).val / 5000 := ht
  obtain ⟨e00, e01, e10, e11, e20, e21, e30, e31, e40, e41, e50, e51, e60, e61⟩ := block_origins t
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- THE RESULT ARRAY after the region: the dense stage of the arrays as the region found them. -/
theorem final (c : Dev nD) : (dat1 V c).arrAt 6 cfg1.N = whole V c :=
  (dat1 V c).arrAt_eq_of_cover 6 (whole V c) (fun t _ => flushed_eq V c t) (covered)

end Cert.KernelIdeal.Sage1

end
-- ==== Proof.Sage2.lean ====
/-
  Layer 3's dense stage, from blocks of rows to the whole array.

  The grid has twenty points; point t stages rows 5000·t … 5000·t + 4999 of the summed messages, of the reciprocal
  degrees and of the node features, and the whole of the two weight matrices and of the bias row, and writes back rows
  5000·t … 5000·t + 4999 of the result.  An entry (p, q) of the dense stage reads row p of its inputs only, so the
  block a point writes back is that block of ONE function of the whole arrays; the twenty blocks tile the 100000 rows,
  so after the region the result array holds that function everywhere.  The arrays are taken as the region finds
  them, whatever they hold.
-/
import proofs.«171906_j55783035240818_1_alg».proof.Proof.Gen.KernelIdeal.Frame
import proofs.«171906_j55783035240818_1_alg».proof.Proof.SageSpec
import Idealize.ShloMosaic.Lib.Pipeline.Value
import Idealize.ShloMosaic.Lib.ValueIdx

set_option maxRecDepth 16384

noncomputable section

namespace Cert.KernelIdeal.Sage2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block product contracts the lanes of its left operand against the rows of its right one, nothing else. -/
theorem plain : PlainDot.IsPlain dot_S5000x64_S64x64_S5000x64_1_0_0_1_n_n := ⟨rfl, rfl, rfl, rfl, rfl, rfl⟩

/-- What the body stores, of the blocks it loaded: the dense stage of those blocks. -/
theorem body_value (x0 : Vec Ideal S5000x64 .f32) (x1 : Vec Ideal S5000x1 .f32) (x2 : Vec Ideal S5000x64 .f32)
    (x3 x4 : Vec Ideal S64x64 .f32) (x5 : Vec Ideal S1x64 .f32) :
    k2_pay1 x0 x1 x2 x3 x4 x5 = SageSpec.layer (SageSpec.scale x0 x1) x2 x3 x4 (fun q => x5 (ix2 (0 : Fin 1) q)) := by
  unfold k2_pay1
  rw [shapeCast_self x2]
  exact SageSpec.kernel_layer plain x0 x1 x2 x3 x4 x5 _ _ _ _ _ _

/-- The dense stage of the whole arrays as the region finds them. -/
def whole (c : Dev nD) : S100000x64.Idx → EReal :=
  SageSpec.layer (SageSpec.scale (V c main_v45) (V c main_v11)) (V c main_v35) (V c main_arg8) (V c main_arg9) (fun q => V c main_v46 (ix2 (0 : Fin 1) q))

/-- Where each window's block sits at point t: the three row-blocked inputs and the output at block row t, the weights and
    the bias at the origin. -/
theorem block_origins : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Every block row is some point's. -/
theorem block_onto : ∀ q0 : Fin 20, ∃ t : Fin cfg2.N, t.val = q0.val :=
  (by decide +kernel : ∀ q0 : Fin 20, ∃ t : Fin grid2.N, t.val = q0.val)

/-- WHAT POINT t WRITES BACK is block t of the dense stage of the whole arrays. -/
theorem flushed_eq (c : Dev nD) (t : Fin cfg2.N) :
    (dat2 V c).flushed 6 t = ((cfg2.win 6).blk t).view.read (Elt Ideal) (whole V c) := by
  show (cfg2.win 6).cut (grid2.coords t) ((dat2 V c).after 6 t) = _
  rw [after2_6]
  unfold out2_6
  rw [View.canon_unit_zero origin]
  simp only [View.ld_unit_zero (S := S5000x64) origin, View.ld_unit_zero (S := S5000x1) origin,
    View.ld_unit_zero (S := S64x64) origin, View.ld_unit_zero (S := S1x64) origin]
  rw [body_value]
  obtain ⟨e00, e01, e10, e11, e20, e21, e30, e31, e40, e41, e50, e51, e60, e61⟩ := block_origins t
  have ht : t.val < 20 := lt_of_lt_of_eq t.isLt N_2
  funext j
  obtain ⟨r, q, rfl⟩ : ∃ (r : Fin 5000) (q : Fin 64), j = ix2 r q := ⟨j 0, j 1, eq_ix2 j⟩
  have hr : r.val < 5000 := r.isLt
  have hq : q.val < 64 := q.isLt
  show SageSpec.layer (SageSpec.scale (iblk2 V c 0 t) (iblk2 V c 1 t)) (iblk2 V c 2 t) (iblk2 V c 3 t) (iblk2 V c 4 t)
      (fun q => iblk2 V c 5 t (ix2 (0 : Fin 1) q)) (ix2 r q) = whole V c (((cfg2.win 6).blk t).view.emb (ix2 r q))
  have hemb : ((cfg2.win 6).blk t).view.emb (ix2 r q) = ix2 (⟨t.val * 5000 + r.val, by omega⟩ : Fin 100000) q := by
    funext a; apply Fin.ext
    match a with
    | ⟨0, _⟩ => show win2_6.index t (0 : Fin 2) * 5000 + 1 * r.val = t.val * 5000 + r.val; omega
    | ⟨1, _⟩ => show win2_6.index t (1 : Fin 2) * 64 + 1 * q.val = q.val; omega
  rw [hemb]
  unfold whole
  refine SageSpec.layer_scale_congr (fun k => ?_) ?_ (fun k => ?_) (fun k => ?_) (fun k => ?_) ?_
  · have hk : k.val < 64 := k.isLt
    show V c main_v45 (((cfg2.win 0).blk t).view.emb (ix2 r k)) = V c main_v45 (ix2 _ k)
    refine congrArg _ (funext fun a => Fin.ext ?_)
    match a with
    | ⟨0, _⟩ => show win2_0.index t (0 : Fin 2) * 5000 + 1 * r.val = t.val * 5000 + r.val; omega
    | ⟨1, _⟩ => show win2_0.index t (1 : Fin 2) * 64 + 1 * k.val = k.val; omega
  · show V c main_v11 (((cfg2.win 1).blk t).view.emb (ix2 r (0 : Fin 1))) = V c main_v11 (ix2 _ (0 : Fin 1))
    refine congrArg _ (funext fun a => Fin.ext ?_)
    match a with
    | ⟨0, _⟩ => show win2_1.index t (0 : Fin 2) * 5000 + 1 * r.val = t.val * 5000 + r.val; omega
    | ⟨1, _⟩ => show win2_1.index t (1 : Fin 2) * 1 + 1 * 0 = 0; omega
  · have hk : k.val < 64 := k.isLt
    show V c main_v35 (((cfg2.win 2).blk t).view.emb (ix2 r k)) = V c main_v35 (ix2 _ k)
    refine congrArg _ (funext fun a => Fin.ext ?_)
    match a with
    | ⟨0, _⟩ => show win2_2.index t (0 : Fin 2) * 5000 + 1 * r.val = t.val * 5000 + r.val; omega
    | ⟨1, _⟩ => show win2_2.index t (1 : Fin 2) * 64 + 1 * k.val = k.val; omega
  · have hk : k.val < 64 := k.isLt
    show V c main_arg8 (((cfg2.win 3).blk t).view.emb (ix2 k q)) = V c main_arg8 (ix2 k q)
    refine congrArg _ (funext fun a => Fin.ext ?_)
    match a with
    | ⟨0, _⟩ => show win2_3.index t (0 : Fin 2) * 64 + 1 * k.val = k.val; omega
    | ⟨1, _⟩ => show win2_3.index t (1 : Fin 2) * 64 + 1 * q.val = q.val; omega
  · have hk : k.val < 64 := k.isLt
    show V c main_arg9 (((cfg2.win 4).blk t).view.emb (ix2 k q)) = V c main_arg9 (ix2 k q)
    refine congrArg _ (funext fun a => Fin.ext ?_)
    match a with
    | ⟨0, _⟩ => show win2_4.index t (0 : Fin 2) * 64 + 1 * k.val = k.val; omega
    | ⟨1, _⟩ => show win2_4.index t (1 : Fin 2) * 64 + 1 * q.val = q.val; omega
  · show V c main_v46 (((cfg2.win 5).blk t).view.emb (ix2 (0 : Fin 1) q)) = V c main_v46 (ix2 (0 : Fin 1) q)
    refine congrArg _ (funext fun a => Fin.ext ?_)
    match a with
    | ⟨0, _⟩ => show win2_5.index t (0 : Fin 2) * 1 + 1 * 0 = 0; omega
    | ⟨1, _⟩ => show win2_5.index t (1 : Fin 2) * 64 + 1 * q.val = q.val; omega

/-- An index of the result array is in point t's block iff each coordinate is in the block's range on its axis. -/
theorem mem_block (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v47).slice (win2_6.rect t)).set ↔ _
  rw [View.set_slice_whole, Rect.mem_set_unit]
  exact Iff.rfl

/-- The twenty blocks tile the rows: row p is in the block of point p / 5000. -/
theorem covered (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ := block_onto ⟨(i 0).val / 5000, by omega⟩
  have ht' : t.val = (i 0).val / 5000 := ht
  obtain ⟨e00, e01, e10, e11, e20, e21, e30, e31, e40, e41, e50, e51, e60, e61⟩ := block_origins t
  refine ⟨t, flush2_6 t, ?_⟩
  rw [mem_block]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- THE RESULT ARRAY after the region: the dense stage of the arrays as the region found them. -/
theorem final (c : Dev nD) : (dat2 V c).arrAt 6 cfg2.N = whole V c :=
  (dat2 V c).arrAt_eq_of_cover 6 (whole V c) (fun t _ => flushed_eq V c t) (covered)

end Cert.KernelIdeal.Sage2

end
-- ==== Proof.FinalLayer.lean ====
/-
  The final linear layer, from blocks of rows to the whole array.

  Point t of the twenty-point grid stages rows 5000·t … 5000·t + 4999 of the last hidden features and the whole of the
  weight matrix and of the bias row, and writes back the same rows of h·W + b.  Entry (p, q) of a dense layer reads row
  p of its input only, so each written block is that block of ONE function of the whole arrays, and the twenty blocks
  tile the 100000 rows.
-/
import proofs.«171906_j55783035240818_1_alg».proof.Proof.Gen.KernelIdeal.Frame
import proofs.«171906_j55783035240818_1_alg».proof.Proof.LibDenseLayer
import Idealize.ShloMosaic.Lib.Pipeline.Value
import Idealize.ShloMosaic.Lib.ValueIdx

set_option maxRecDepth 16384

noncomputable section

namespace Cert.KernelIdeal.Final

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block product contracts the lanes of its left operand against the rows of its right one, nothing else. -/
theorem plain : PlainDot.IsPlain dot_S5000x64_S64x32_S5000x32_1_0_0_1_n_n := ⟨rfl, rfl, rfl, rfl, rfl, rfl⟩

/-- What the body stores, of the blocks it loaded: the dense layer of those blocks. -/
theorem body_value (x0 : Vec Ideal S5000x64 .f32) (x1 : Vec Ideal S64x32 .f32) (x2 : Vec Ideal S1x32 .f32) :
    k3_pay1 x0 x1 x2 = DenseLayer.dense x0 x1 (fun q => x2 (ix2 (0 : Fin 1) q)) := by
  unfold k3_pay1
  rw [shapeCast_self x0]
  exact DenseLayer.kernel_dense plain x0 x1 x2 _ _ _

/-- The dense layer of the whole arrays as the region finds them. -/
def whole (c : Dev nD) : S100000x32.Idx → EReal :=
  DenseLayer.dense (V c main_v47) (V c main_arg11) (fun q => V c main_v48 (ix2 (0 : Fin 1) q))

/-- Where each window's block sits at point t: the input and the output at block row t, the weights and the bias at the
    origin. -/
theorem block_origins : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every block row is some point's. -/
theorem block_onto : ∀ q0 : Fin 20, ∃ t : Fin cfg3.N, t.val = q0.val :=
  (by decide +kernel : ∀ q0 : Fin 20, ∃ t : Fin grid3.N, t.val = q0.val)

/-- WHAT POINT t WRITES BACK is block t of the dense layer of the whole arrays. -/
theorem flushed_eq (c : Dev nD) (t : Fin cfg3.N) :
    (dat3 V c).flushed 3 t = ((cfg3.win 3).blk t).view.read (Elt Ideal) (whole V c) := by
  show (cfg3.win 3).cut (grid3.coords t) ((dat3 V c).after 3 t) = _
  rw [after3_3]
  unfold out3_3
  rw [View.canon_unit_zero origin]
  simp only [View.ld_unit_zero (S := S5000x64) origin, View.ld_unit_zero (S := S64x32) origin,
    View.ld_unit_zero (S := S1x32) origin]
  rw [body_value]
  obtain ⟨e00, e01, e10, e11, e20, e21, e30, e31⟩ := block_origins t
  have ht : t.val < 20 := lt_of_lt_of_eq t.isLt N_3
  funext j
  obtain ⟨r, q, rfl⟩ : ∃ (r : Fin 5000) (q : Fin 32), j = ix2 r q := ⟨j 0, j 1, eq_ix2 j⟩
  have hr : r.val < 5000 := r.isLt
  have hq : q.val < 32 := q.isLt
  show DenseLayer.dense (iblk3 V c 0 t) (iblk3 V c 1 t) (fun q => iblk3 V c 2 t (ix2 (0 : Fin 1) q)) (ix2 r q)
      = whole V c (((cfg3.win 3).blk t).view.emb (ix2 r q))
  have hemb : ((cfg3.win 3).blk t).view.emb (ix2 r q) = ix2 (⟨t.val * 5000 + r.val, by omega⟩ : Fin 100000) q := by
    funext a; apply Fin.ext
    match a with
    | ⟨0, _⟩ => show win3_3.index t (0 : Fin 2) * 5000 + 1 * r.val = t.val * 5000 + r.val; omega
    | ⟨1, _⟩ => show win3_3.index t (1 : Fin 2) * 32 + 1 * q.val = q.val; omega
  rw [hemb]
  unfold whole
  refine DenseLayer.dense_congr (fun k => ?_) (fun k => ?_) ?_
  · have hk : k.val < 64 := k.isLt
    show V c main_v47 (((cfg3.win 0).blk t).view.emb (ix2 r k)) = V c main_v47 (ix2 _ k)
    refine congrArg _ (funext fun a => Fin.ext ?_)
    match a with
    | ⟨0, _⟩ => show win3_0.index t (0 : Fin 2) * 5000 + 1 * r.val = t.val * 5000 + r.val; omega
    | ⟨1, _⟩ => show win3_0.index t (1 : Fin 2) * 64 + 1 * k.val = k.val; omega
  · have hk : k.val < 64 := k.isLt
    show V c main_arg11 (((cfg3.win 1).blk t).view.emb (ix2 k q)) = V c main_arg11 (ix2 k q)
    refine congrArg _ (funext fun a => Fin.ext ?_)
    match a with
    | ⟨0, _⟩ => show win3_1.index t (0 : Fin 2) * 64 + 1 * k.val = k.val; omega
    | ⟨1, _⟩ => show win3_1.index t (1 : Fin 2) * 32 + 1 * q.val = q.val; omega
  · show V c main_v48 (((cfg3.win 2).blk t).view.emb (ix2 (0 : Fin 1) q)) = V c main_v48 (ix2 (0 : Fin 1) q)
    refine congrArg _ (funext fun a => Fin.ext ?_)
    match a with
    | ⟨0, _⟩ => show win3_2.index t (0 : Fin 2) * 1 + 1 * 0 = 0; omega
    | ⟨1, _⟩ => show win3_2.index t (1 : Fin 2) * 32 + 1 * q.val = q.val; omega

/-- An index of the result array is in point t's block iff each coordinate is in the block's range on its axis. -/
theorem mem_block (t : Fin cfg3.N) (i : S100000x32.Idx) :
    i ∈ ((cfg3.win 3).blk t).view.set ↔ ∀ a : Fin 2, win3_3.index t a * S5000x32.size a ≤ (i a).val ∧ (i a).val < win3_3.index t a * S5000x32.size a + S5000x32.size a := by
  show i ∈ ((View.whole main_v49).slice (win3_3.rect t)).set ↔ _
  rw [View.set_slice_whole, Rect.mem_set_unit]
  exact Iff.rfl

/-- The twenty blocks tile the rows: row p is in the block of point p / 5000. -/
theorem covered (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  obtain ⟨t, ht⟩ := block_onto ⟨(i 0).val / 5000, by omega⟩
  have ht' : t.val = (i 0).val / 5000 := ht
  obtain ⟨e00, e01, e10, e11, e20, e21, e30, e31⟩ := block_origins t
  refine ⟨t, flush3_3 t, ?_⟩
  rw [mem_block]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 32 ≤ (i 1).val ∧ (i 1).val < win3_3.index t (1 : Fin 2) * 32 + 32; omega

/-- THE RESULT ARRAY after the region: the dense layer of the arrays as the region found them. -/
theorem final (c : Dev nD) : (dat3 V c).arrAt 3 cfg3.N = whole V c :=
  (dat3 V c).arrAt_eq_of_cover 3 (whole V c) (fun t _ => flushed_eq V c t) (covered)

end Cert.KernelIdeal.Final

end
-- ==== Proof.Net.lean ====
/-
  The graph network as whole-array functions of the argument arrays.

  Both programs compute, from the edge list, the source and destination vectors, the per-node in-degree clamped below
  at one, and per layer the summed messages: the features gathered at the sources (a negative source counted from the
  end) and scatter-added at the destinations.  Those host operations are the same in both programs and are kept here
  as they are printed, never opened.  A layer is then the dense stage of SageSpec over the mean-aggregated messages,
  and the network three layers followed by one dense layer.

  The kernel's program scales the summed messages by the reciprocals of the clamped degrees, computed once; the
  reference divides by the clamped degrees.  A clamped degree is at least one, so it is not zero, and on the extended
  reals the quotient by a non-zero number is the product with its inverse: the two layers are one function.
-/
import proofs.«171906_j55783035240818_1_alg».proof.KernelIdeal
import proofs.«171906_j55783035240818_1_alg».proof.Proof.Gen.KernelIdeal
import proofs.«171906_j55783035240818_1_alg».proof.Proof.SageSpec
import Idealize.ShloMosaic.PureOps.Ideal

noncomputable section

namespace Cert.KernelIdeal.Net

open Cert.KernelIdeal Cert.KernelIdeal.Facts₀ Idealize.ShloMosaic Idealize.ShloMosaic.ValueIdx

abbrev Edges : Type := IVec S2x1600000 32
abbrev EdgeVec : Type := IVec S1600000 32
abbrev Feat : Type := FVec Ideal S100000x64 .f32
abbrev Col : Type := FVec Ideal S100000x1 .f32
abbrev Mat : Type := FVec Ideal S64x64 .f32
abbrev Bias : Type := FVec Ideal S64 .f32
abbrev MatOut : Type := FVec Ideal S64x32 .f32
abbrev BiasOut : Type := FVec Ideal S32 .f32
abbrev Out : Type := FVec Ideal S100000x32 .f32

/-- The edges' sources: row 0 of the edge list. -/
def src (e : Edges) : EdgeVec :=
  shapeCast _ (extractStridedSlice S1x1600000 ![0, 0] e slices_S2x1600000_S1x1600000_0_0) shapeCasts_S1x1600000_S1600000

/-- The edges' destinations: row 1 of the edge list. -/
def dst (e : Edges) : EdgeVec :=
  shapeCast _ (extractStridedSlice S1x1600000 ![1, 0] e slices_S2x1600000_S1x1600000_1_0) shapeCasts_S1x1600000_S1600000

/-- A column of ones. -/
def ones : Col := broadcastInDim S100000x1 ![] bcast_S_S100000x1 (constant (F := Ideal) S_ .f32 0x3F800000#32)

/-- The in-degree of every node (one added per edge at its destination), clamped below at one. -/
def degMax (d : EdgeVec) : Col :=
  maximumf (Host.scatterAdd (F := Ideal) scatter_S100000x1_S1600000x1_S1600000x1_1_0_0_1
      (broadcastInDim S100000x1 ![] bcast_S_S100000x1 (constant (F := Ideal) S_ .f32 0x00000000#32))
      (broadcastInDim S1600000x1 ![0] bcast_S1600000_S1600000x1_0 d)
      (broadcastInDim S1600000x1 ![] bcast_S_S1600000x1 (constant (F := Ideal) S_ .f32 0x3F800000#32)))
    ones

/-- The reciprocals of the clamped degrees. -/
def recip (d : EdgeVec) : Col := Host.divf (F := Ideal) ones (degMax d)

/-- The summed messages: the features gathered at the edges' sources, scatter-added at their destinations. -/
def msgSum (s d : EdgeVec) (h : Feat) : Feat :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- A bias vector laid out as a one-row block. -/
def biasRow (b : Bias) : FVec Ideal S1x64 .f32 := shapeCast _ b shapeCasts_S64_S1x64
def biasRowOut (b : BiasOut) : FVec Ideal S1x32 .f32 := shapeCast _ b shapeCasts_S32_S1x32

/-- One layer as the kernel's program computes it: the messages scaled by the reciprocal degrees. -/
def layerScaled (s d : EdgeVec) (h : Feat) (wl wr : Mat) (b : Bias) : Feat :=
  SageSpec.layer (SageSpec.scale (msgSum s d h) (recip d)) h wl wr (fun q => biasRow b (ix2 (0 : Fin 1) q))

/-- One layer: the messages divided by the clamped degrees. -/
def layerMean (s d : EdgeVec) (h : Feat) (wl wr : Mat) (b : Bias) : Feat :=
  SageSpec.layer (SageSpec.mean (msgSum s d h) (degMax d)) h wl wr (fun q => b (ix1 q))

/-- The network as the kernel's program computes it. -/
def netScaled (x : Feat) (e : Edges) (wl1 wr1 : Mat) (b1 : Bias) (wl2 wr2 : Mat) (b2 : Bias) (wl3 wr3 : Mat) (b3 : Bias)
    (wlin : MatOut) (blin : BiasOut) : Out :=
  DenseLayer.dense (layerScaled (src e) (dst e) (layerScaled (src e) (dst e) (layerScaled (src e) (dst e) x wl1 wr1 b1) wl2 wr2 b2) wl3 wr3 b3)
    wlin (fun q => biasRowOut blin (ix2 (0 : Fin 1) q))

/-- THE NETWORK: three mean-aggregating layers and a dense layer. -/
def net (x : Feat) (e : Edges) (wl1 wr1 : Mat) (b1 : Bias) (wl2 wr2 : Mat) (b2 : Bias) (wl3 wr3 : Mat) (b3 : Bias)
    (wlin : MatOut) (blin : BiasOut) : Out :=
  DenseLayer.dense (layerMean (src e) (dst e) (layerMean (src e) (dst e) (layerMean (src e) (dst e) x wl1 wr1 b1) wl2 wr2 b2) wl3 wr3 b3)
    wlin (fun q => blin (ix1 q))

/-- Every entry of the column of ones is the number one. -/
theorem ones_apply (i : S100000x1.Idx) : ones i = 1 :=
  (BroadcastReads.scalar_to S100000x1 _ bcast_S_S100000x1 i).trans DenseLayer.ofBits_one

/-- The maximum of any column with the column of ones is at least one, hence nowhere zero. -/
theorem max_ones_ne_zero (a : Col) (i : S100000x1.Idx) : maximumf a ones i ≠ 0 := by
  have e : maximumf a ones i = max (a i) (ones i) := rfl
  have h1 : (1 : EReal) ≤ maximumf a ones i := by
    rw [e, ones_apply]
    exact le_max_right _ _
  exact ne_of_gt (lt_of_lt_of_le zero_lt_one h1)

/-- A clamped degree is at least one, hence not zero. -/
theorem degMax_ne_zero (d : EdgeVec) (i : S100000x1.Idx) : degMax d i ≠ 0 :=
  max_ones_ne_zero _ i

/-- The quotient of the column of ones by any column reads, at an index, one divided by that column's entry. -/
theorem ones_div_apply (b : Col) (i : S100000x1.Idx) : Host.divf (F := Ideal) ones b i = Ideal.div 1 (b i) := by
  have e : Host.divf (F := Ideal) ones b i = Ideal.div (ones i) (b i) := rfl
  rw [e, ones_apply]

/-- A reciprocal degree is one divided by the clamped degree. -/
theorem recip_apply (d : EdgeVec) (i : S100000x1.Idx) : recip d i = Ideal.div 1 (degMax d i) :=
  ones_div_apply (degMax d) i

/-- A bias laid out as a row reads, at (0, q), the bias at q. -/
theorem biasRow_apply (b : Bias) (q : Fin 64) : biasRow b (ix2 (0 : Fin 1) q) = b (ix1 q) :=
  shapeCast_apply b shapeCasts_S64_S1x64 _ _ (by
    rw [Shape.rowMajor_val_two, Shape.rowMajor_val_one]
    show q.val = 0 * 64 + q.val
    omega)

theorem biasRowOut_apply (b : BiasOut) (q : Fin 32) : biasRowOut b (ix2 (0 : Fin 1) q) = b (ix1 q) :=
  shapeCast_apply b shapeCasts_S32_S1x32 _ _ (by
    rw [Shape.rowMajor_val_two, Shape.rowMajor_val_one]
    show q.val = 0 * 32 + q.val
    omega)

/-- Scaling by the reciprocal degrees is dividing by the degrees: the two layers are one function. -/
theorem layerScaled_eq (s d : EdgeVec) (h : Feat) (wl wr : Mat) (b : Bias) :
    layerScaled s d h wl wr b = layerMean s d h wl wr b := by
  unfold layerScaled layerMean
  rw [SageSpec.scale_recip (msgSum s d h) (degMax d) (recip d) (fun p => recip_apply d _) (fun p => degMax_ne_zero d _)]
  exact congrArg (SageSpec.layer (SageSpec.mean (msgSum s d h) (degMax d)) h wl wr) (funext fun q => biasRow_apply b q)

/-- The kernel's network is the network. -/
theorem netScaled_eq (x : Feat) (e : Edges) (wl1 wr1 : Mat) (b1 : Bias) (wl2 wr2 : Mat) (b2 : Bias) (wl3 wr3 : Mat) (b3 : Bias)
    (wlin : MatOut) (blin : BiasOut) :
    netScaled x e wl1 wr1 b1 wl2 wr2 b2 wl3 wr3 b3 wlin blin = net x e wl1 wr1 b1 wl2 wr2 b2 wl3 wr3 b3 wlin blin := by
  unfold netScaled net
  rw [layerScaled_eq, layerScaled_eq, layerScaled_eq]
  exact congrArg (DenseLayer.dense (layerMean (src e) (dst e) (layerMean (src e) (dst e) (layerMean (src e) (dst e) x wl1 wr1 b1) wl2 wr2 b2) wl3 wr3 b3) wlin)
    (funext fun q => biasRowOut_apply blin q)

end Cert.KernelIdeal.Net

end
-- ==== Proof.KernelFold.lean ====
/-
  The kernel's program, read from the launch to the return.

  The program is four stretches of host operations and four kernel regions, alternating.  What each buffer holds at each
  boundary is a fold from the launch memory: a host stretch rewrites the buffers its operations write and keeps the rest;
  a region leaves its result array at the dense stage of its input arrays (the blocks-to-array modules) and keeps every
  other buffer.  Followed buffer by buffer, the fold gives the result buffer at the return as the network of the launch
  arguments, each layer scaling the summed messages by the reciprocal degrees.
-/
import proofs.«171906_j55783035240818_1_alg».proof.Proof.Gen.KernelIdeal.Frame
import proofs.«171906_j55783035240818_1_alg».proof.Proof.Sage0
import proofs.«171906_j55783035240818_1_alg».proof.Proof.Sage1
import proofs.«171906_j55783035240818_1_alg».proof.Proof.Sage2
import proofs.«171906_j55783035240818_1_alg».proof.Proof.FinalLayer
import proofs.«171906_j55783035240818_1_alg».proof.Proof.Net
import Idealize.ShloMosaic.Lib.StableHlo.Run

set_option maxRecDepth 16384

noncomputable section

namespace Cert.KernelIdeal.Fold

open Cert.KernelIdeal Cert.KernelIdeal.Gen Cert.KernelIdeal.Net Idealize.ShloMosaic Idealize.ShloMosaic.TcCoe Idealize.SL.Sem
open Idealize.ShloMosaic.StableHlo Idealize.ShloMosaic.ValueIdx

/-! ## The host stretches, from any contents -/

section Stretches

variable (W : Valuation τ sig (Elt Ideal))

/-- Stretch 0 computes the sources, the destinations, the reciprocal degrees, layer 1's summed messages and its bias row. -/
theorem s0_v1 : after hostOps0 W (Proc.devRef .tc main_v1) = src (W (Proc.devRef .tc main_arg1)) := by
  dsimp only [hostOps0]; after_results; rfl
theorem s0_v3 : after hostOps0 W (Proc.devRef .tc main_v3) = dst (W (Proc.devRef .tc main_arg1)) := by
  dsimp only [hostOps0]; after_results; rfl
theorem s0_v11 : after hostOps0 W (Proc.devRef .tc main_v11) = recip (dst (W (Proc.devRef .tc main_arg1))) := by
  dsimp only [hostOps0]; after_results; rfl
theorem s0_v21 : after hostOps0 W (Proc.devRef .tc main_v21) = msgSum (src (W (Proc.devRef .tc main_arg1))) (dst (W (Proc.devRef .tc main_arg1))) (W (Proc.devRef .tc main_arg0)) := by
  dsimp only [hostOps0]; after_results_simp; rfl
theorem s0_v22 : after hostOps0 W (Proc.devRef .tc main_v22) = biasRow (W (Proc.devRef .tc main_arg4)) := by
  dsimp only [hostOps0]; after_results; rfl
theorem s0_keep_arg0 : after hostOps0 W (Proc.devRef .tc main_arg0) = W (Proc.devRef .tc main_arg0) := by
  dsimp only [hostOps0]; after_results
theorem s0_keep_arg2 : after hostOps0 W (Proc.devRef .tc main_arg2) = W (Proc.devRef .tc main_arg2) := by
  dsimp only [hostOps0]; after_results
theorem s0_keep_arg3 : after hostOps0 W (Proc.devRef .tc main_arg3) = W (Proc.devRef .tc main_arg3) := by
  dsimp only [hostOps0]; after_results
theorem s0_keep_arg5 : after hostOps0 W (Proc.devRef .tc main_arg5) = W (Proc.devRef .tc main_arg5) := by
  dsimp only [hostOps0]; after_results
theorem s0_keep_arg6 : after hostOps0 W (Proc.devRef .tc main_arg6) = W (Proc.devRef .tc main_arg6) := by
  dsimp only [hostOps0]; after_results
theorem s0_keep_arg7 : after hostOps0 W (Proc.devRef .tc main_arg7) = W (Proc.devRef .tc main_arg7) := by
  dsimp only [hostOps0]; after_results
theorem s0_keep_arg8 : after hostOps0 W (Proc.devRef .tc main_arg8) = W (Proc.devRef .tc main_arg8) := by
  dsimp only [hostOps0]; after_results
theorem s0_keep_arg9 : after hostOps0 W (Proc.devRef .tc main_arg9) = W (Proc.devRef .tc main_arg9) := by
  dsimp only [hostOps0]; after_results
theorem s0_keep_arg10 : after hostOps0 W (Proc.devRef .tc main_arg10) = W (Proc.devRef .tc main_arg10) := by
  dsimp only [hostOps0]; after_results
theorem s0_keep_arg11 : after hostOps0 W (Proc.devRef .tc main_arg11) = W (Proc.devRef .tc main_arg11) := by
  dsimp only [hostOps0]; after_results
theorem s0_keep_arg12 : after hostOps0 W (Proc.devRef .tc main_arg12) = W (Proc.devRef .tc main_arg12) := by
  dsimp only [hostOps0]; after_results

/-- Stretch 1 computes layer 2's summed messages and its bias row. -/
theorem s1_v33 : after hostOps1 W (Proc.devRef .tc main_v33) = msgSum (W (Proc.devRef .tc main_v1)) (W (Proc.devRef .tc main_v3)) (W (Proc.devRef .tc main_v23)) := by
  dsimp only [hostOps1]; after_results; rfl
theorem s1_v34 : after hostOps1 W (Proc.devRef .tc main_v34) = biasRow (W (Proc.devRef .tc main_arg7)) := by
  dsimp only [hostOps1]; after_results; rfl
theorem s1_keep_v1 : after hostOps1 W (Proc.devRef .tc main_v1) = W (Proc.devRef .tc main_v1) := by
  dsimp only [hostOps1]; after_results
theorem s1_keep_v3 : after hostOps1 W (Proc.devRef .tc main_v3) = W (Proc.devRef .tc main_v3) := by
  dsimp only [hostOps1]; after_results
theorem s1_keep_v11 : after hostOps1 W (Proc.devRef .tc main_v11) = W (Proc.devRef .tc main_v11) := by
  dsimp only [hostOps1]; after_results
theorem s1_keep_v23 : after hostOps1 W (Proc.devRef .tc main_v23) = W (Proc.devRef .tc main_v23) := by
  dsimp only [hostOps1]; after_results
theorem s1_keep_arg5 : after hostOps1 W (Proc.devRef .tc main_arg5) = W (Proc.devRef .tc main_arg5) := by
  dsimp only [hostOps1]; after_results
theorem s1_keep_arg6 : after hostOps1 W (Proc.devRef .tc main_arg6) = W (Proc.devRef .tc main_arg6) := by
  dsimp only [hostOps1]; after_results
theorem s1_keep_arg8 : after hostOps1 W (Proc.devRef .tc main_arg8) = W (Proc.devRef .tc main_arg8) := by
  dsimp only [hostOps1]; after_results
theorem s1_keep_arg9 : after hostOps1 W (Proc.devRef .tc main_arg9) = W (Proc.devRef .tc main_arg9) := by
  dsimp only [hostOps1]; after_results
theorem s1_keep_arg10 : after hostOps1 W (Proc.devRef .tc main_arg10) = W (Proc.devRef .tc main_arg10) := by
  dsimp only [hostOps1]; after_results
theorem s1_keep_arg11 : after hostOps1 W (Proc.devRef .tc main_arg11) = W (Proc.devRef .tc main_arg11) := by
  dsimp only [hostOps1]; after_results
theorem s1_keep_arg12 : after hostOps1 W (Proc.devRef .tc main_arg12) = W (Proc.devRef .tc main_arg12) := by
  dsimp only [hostOps1]; after_results

/-- Stretch 2 computes layer 3's summed messages and its bias row. -/
theorem s2_v45 : after hostOps2 W (Proc.devRef .tc main_v45) = msgSum (W (Proc.devRef .tc main_v1)) (W (Proc.devRef .tc main_v3)) (W (Proc.devRef .tc main_v35)) := by
  dsimp only [hostOps2]; after_results; rfl
theorem s2_v46 : after hostOps2 W (Proc.devRef .tc main_v46) = biasRow (W (Proc.devRef .tc main_arg10)) := by
  dsimp only [hostOps2]; after_results; rfl
theorem s2_keep_v11 : after hostOps2 W (Proc.devRef .tc main_v11) = W (Proc.devRef .tc main_v11) := by
  dsimp only [hostOps2]; after_results
theorem s2_keep_v35 : after hostOps2 W (Proc.devRef .tc main_v35) = W (Proc.devRef .tc main_v35) := by
  dsimp only [hostOps2]; after_results
theorem s2_keep_arg8 : after hostOps2 W (Proc.devRef .tc main_arg8) = W (Proc.devRef .tc main_arg8) := by
  dsimp only [hostOps2]; after_results
theorem s2_keep_arg9 : after hostOps2 W (Proc.devRef .tc main_arg9) = W (Proc.devRef .tc main_arg9) := by
  dsimp only [hostOps2]; after_results
theorem s2_keep_arg11 : after hostOps2 W (Proc.devRef .tc main_arg11) = W (Proc.devRef .tc main_arg11) := by
  dsimp only [hostOps2]; after_results
theorem s2_keep_arg12 : after hostOps2 W (Proc.devRef .tc main_arg12) = W (Proc.devRef .tc main_arg12) := by
  dsimp only [hostOps2]; after_results

/-- Stretch 3 lays the last bias out as a row. -/
theorem s3_v48 : after hostOps3 W (Proc.devRef .tc main_v48) = biasRowOut (W (Proc.devRef .tc main_arg12)) := by
  dsimp only [hostOps3]; after_results; rfl
theorem s3_keep_v47 : after hostOps3 W (Proc.devRef .tc main_v47) = W (Proc.devRef .tc main_v47) := by
  dsimp only [hostOps3]; after_results
theorem s3_keep_arg11 : after hostOps3 W (Proc.devRef .tc main_arg11) = W (Proc.devRef .tc main_arg11) := by
  dsimp only [hostOps3]; after_results

end Stretches

/-! ## The boundaries, from the launch memory -/

variable (m : (ℓ : Loc nD τ sig) → Buf (Elt Ideal) ℓ) (ρ : Dev nD → PrngReg) (c : Dev nD)

/-- The edges' sources and destinations, and the three hidden layers, of the launch arguments. -/
abbrev S : EdgeVec := src (m ((c : Thread nD τ).loc main_arg1))
abbrev D : EdgeVec := dst (m ((c : Thread nD τ).loc main_arg1))
abbrev H1 : Feat := layerScaled (S m c) (D m c) (m ((c : Thread nD τ).loc main_arg0)) (m ((c : Thread nD τ).loc main_arg2)) (m ((c : Thread nD τ).loc main_arg3)) (m ((c : Thread nD τ).loc main_arg4))
abbrev H2 : Feat := layerScaled (S m c) (D m c) (H1 m c) (m ((c : Thread nD τ).loc main_arg5)) (m ((c : Thread nD τ).loc main_arg6)) (m ((c : Thread nD τ).loc main_arg7))
abbrev H3 : Feat := layerScaled (S m c) (D m c) (H2 m c) (m ((c : Thread nD τ).loc main_arg8)) (m ((c : Thread nD τ).loc main_arg9)) (m ((c : Thread nD τ).loc main_arg10))

/-! ### Region 0's entry -/
theorem W1_v1 : W1 m ρ c (Proc.devRef .tc main_v1) = S m c :=
  s0_v1 (W0 m ρ c)
theorem W1_v3 : W1 m ρ c (Proc.devRef .tc main_v3) = D m c :=
  s0_v3 (W0 m ρ c)
theorem W1_v11 : W1 m ρ c (Proc.devRef .tc main_v11) = recip (D m c) :=
  s0_v11 (W0 m ρ c)
theorem W1_v21 : W1 m ρ c (Proc.devRef .tc main_v21) = msgSum (S m c) (D m c) (m ((c : Thread nD τ).loc main_arg0)) :=
  s0_v21 (W0 m ρ c)
theorem W1_v22 : W1 m ρ c (Proc.devRef .tc main_v22) = biasRow (m ((c : Thread nD τ).loc main_arg4)) :=
  s0_v22 (W0 m ρ c)
theorem W1_arg0 : W1 m ρ c (Proc.devRef .tc main_arg0) = (m ((c : Thread nD τ).loc main_arg0)) :=
  s0_keep_arg0 (W0 m ρ c)
theorem W1_arg2 : W1 m ρ c (Proc.devRef .tc main_arg2) = (m ((c : Thread nD τ).loc main_arg2)) :=
  s0_keep_arg2 (W0 m ρ c)
theorem W1_arg3 : W1 m ρ c (Proc.devRef .tc main_arg3) = (m ((c : Thread nD τ).loc main_arg3)) :=
  s0_keep_arg3 (W0 m ρ c)
theorem W1_arg5 : W1 m ρ c (Proc.devRef .tc main_arg5) = (m ((c : Thread nD τ).loc main_arg5)) :=
  s0_keep_arg5 (W0 m ρ c)
theorem W1_arg6 : W1 m ρ c (Proc.devRef .tc main_arg6) = (m ((c : Thread nD τ).loc main_arg6)) :=
  s0_keep_arg6 (W0 m ρ c)
theorem W1_arg7 : W1 m ρ c (Proc.devRef .tc main_arg7) = (m ((c : Thread nD τ).loc main_arg7)) :=
  s0_keep_arg7 (W0 m ρ c)
theorem W1_arg8 : W1 m ρ c (Proc.devRef .tc main_arg8) = (m ((c : Thread nD τ).loc main_arg8)) :=
  s0_keep_arg8 (W0 m ρ c)
theorem W1_arg9 : W1 m ρ c (Proc.devRef .tc main_arg9) = (m ((c : Thread nD τ).loc main_arg9)) :=
  s0_keep_arg9 (W0 m ρ c)
theorem W1_arg10 : W1 m ρ c (Proc.devRef .tc main_arg10) = (m ((c : Thread nD τ).loc main_arg10)) :=
  s0_keep_arg10 (W0 m ρ c)
theorem W1_arg11 : W1 m ρ c (Proc.devRef .tc main_arg11) = (m ((c : Thread nD τ).loc main_arg11)) :=
  s0_keep_arg11 (W0 m ρ c)
theorem W1_arg12 : W1 m ρ c (Proc.devRef .tc main_arg12) = (m ((c : Thread nD τ).loc main_arg12)) :=
  s0_keep_arg12 (W0 m ρ c)

/-! ### Region 0's exit: the first hidden layer -/
theorem W2_v23 : W2 m ρ c (Proc.devRef .tc main_v23) = H1 m c := by
  rw [show W2 m ρ c (Proc.devRef .tc main_v23) = Sage0.whole (V1 m ρ) c from (W2_arr m ρ c 6).trans (Sage0.final (V1 m ρ) c)]
  unfold Sage0.whole
  show SageSpec.layer (SageSpec.scale (W1 m ρ c (Proc.devRef .tc main_v21)) (W1 m ρ c (Proc.devRef .tc main_v11))) (W1 m ρ c (Proc.devRef .tc main_arg0)) (W1 m ρ c (Proc.devRef .tc main_arg2))
    (W1 m ρ c (Proc.devRef .tc main_arg3)) (fun q => W1 m ρ c (Proc.devRef .tc main_v22) (ix2 (0 : Fin 1) q)) = _
  rw [W1_v21, W1_v11, W1_arg0, W1_arg2, W1_arg3, W1_v22]
  rfl
theorem W2_v1 : W2 m ρ c (Proc.devRef .tc main_v1) = S m c :=
  (W2_of_ne m ρ c main_v1 (by decide)).trans (W1_v1 m ρ c)
theorem W2_v3 : W2 m ρ c (Proc.devRef .tc main_v3) = D m c :=
  (W2_of_ne m ρ c main_v3 (by decide)).trans (W1_v3 m ρ c)
theorem W2_v11 : W2 m ρ c (Proc.devRef .tc main_v11) = recip (D m c) :=
  ((W2_arr m ρ c 1).trans (((dat0 (V1 m ρ) c).arrAt_in 1 rfl _).trans (A_eq0 (V1 m ρ) c 1))).trans (W1_v11 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)
theorem W2_arg12 : W2 m ρ c (Proc.devRef .tc main_arg12) = (m ((c : Thread nD τ).loc main_arg12)) :=
  (W2_of_ne m ρ c main_arg12 (by decide)).trans (W1_arg12 m ρ c)

/-! ### Region 1's entry -/
theorem W3_v33 : W3 m ρ c (Proc.devRef .tc main_v33) = msgSum (S m c) (D m c) (H1 m c) := by
  rw [show W3 m ρ c (Proc.devRef .tc main_v33) = _ from s1_v33 (W2 m ρ c), W2_v1, W2_v3, W2_v23]
theorem W3_v34 : W3 m ρ c (Proc.devRef .tc main_v34) = biasRow (m ((c : Thread nD τ).loc main_arg7)) := by
  rw [show W3 m ρ c (Proc.devRef .tc main_v34) = _ from s1_v34 (W2 m ρ c), W2_arg7]
theorem W3_v1 : W3 m ρ c (Proc.devRef .tc main_v1) = S m c :=
  (s1_keep_v1 (W2 m ρ c)).trans (W2_v1 m ρ c)
theorem W3_v3 : W3 m ρ c (Proc.devRef .tc main_v3) = D m c :=
  (s1_keep_v3 (W2 m ρ c)).trans (W2_v3 m ρ c)
theorem W3_v11 : W3 m ρ c (Proc.devRef .tc main_v11) = recip (D m c) :=
  (s1_keep_v11 (W2 m ρ c)).trans (W2_v11 m ρ c)
theorem W3_v23 : W3 m ρ c (Proc.devRef .tc main_v23) = H1 m c :=
  (s1_keep_v23 (W2 m ρ c)).trans (W2_v23 m ρ c)
theorem W3_arg5 : W3 m ρ c (Proc.devRef .tc main_arg5) = (m ((c : Thread nD τ).loc main_arg5)) :=
  (s1_keep_arg5 (W2 m ρ c)).trans (W2_arg5 m ρ c)
theorem W3_arg6 : W3 m ρ c (Proc.devRef .tc main_arg6) = (m ((c : Thread nD τ).loc main_arg6)) :=
  (s1_keep_arg6 (W2 m ρ c)).trans (W2_arg6 m ρ c)
theorem W3_arg8 : W3 m ρ c (Proc.devRef .tc main_arg8) = (m ((c : Thread nD τ).loc main_arg8)) :=
  (s1_keep_arg8 (W2 m ρ c)).trans (W2_arg8 m ρ c)
theorem W3_arg9 : W3 m ρ c (Proc.devRef .tc main_arg9) = (m ((c : Thread nD τ).loc main_arg9)) :=
  (s1_keep_arg9 (W2 m ρ c)).trans (W2_arg9 m ρ c)
theorem W3_arg10 : W3 m ρ c (Proc.devRef .tc main_arg10) = (m ((c : Thread nD τ).loc main_arg10)) :=
  (s1_keep_arg10 (W2 m ρ c)).trans (W2_arg10 m ρ c)
theorem W3_arg11 : W3 m ρ c (Proc.devRef .tc main_arg11) = (m ((c : Thread nD τ).loc main_arg11)) :=
  (s1_keep_arg11 (W2 m ρ c)).trans (W2_arg11 m ρ c)
theorem W3_arg12 : W3 m ρ c (Proc.devRef .tc main_arg12) = (m ((c : Thread nD τ).loc main_arg12)) :=
  (s1_keep_arg12 (W2 m ρ c)).trans (W2_arg12 m ρ c)

/-! ### Region 1's exit: the second hidden layer -/
theorem W4_v35 : W4 m ρ c (Proc.devRef .tc main_v35) = H2 m c := by
  rw [show W4 m ρ c (Proc.devRef .tc main_v35) = Sage1.whole (V3 m ρ) c from (W4_arr m ρ c 6).trans (Sage1.final (V3 m ρ) c)]
  unfold Sage1.whole
  show SageSpec.layer (SageSpec.scale (W3 m ρ c (Proc.devRef .tc main_v33)) (W3 m ρ c (Proc.devRef .tc main_v11))) (W3 m ρ c (Proc.devRef .tc main_v23)) (W3 m ρ c (Proc.devRef .tc main_arg5))
    (W3 m ρ c (Proc.devRef .tc main_arg6)) (fun q => W3 m ρ c (Proc.devRef .tc main_v34) (ix2 (0 : Fin 1) q)) = _
  rw [W3_v33, W3_v11, W3_v23, W3_arg5, W3_arg6, W3_v34]
  rfl
theorem W4_v1 : W4 m ρ c (Proc.devRef .tc main_v1) = S m c :=
  (W4_of_ne m ρ c main_v1 (by decide)).trans (W3_v1 m ρ c)
theorem W4_v3 : W4 m ρ c (Proc.devRef .tc main_v3) = D m c :=
  (W4_of_ne m ρ c main_v3 (by decide)).trans (W3_v3 m ρ c)
theorem W4_v11 : W4 m ρ c (Proc.devRef .tc main_v11) = recip (D m c) :=
  ((W4_arr m ρ c 1).trans (((dat1 (V3 m ρ) c).arrAt_in 1 rfl _).trans (A_eq1 (V3 m ρ) c 1))).trans (W3_v11 m ρ c)
theorem W4_arg8 : W4 m ρ c (Proc.devRef .tc main_arg8) = (m ((c : Thread nD τ).loc main_arg8)) :=
  (W4_of_ne m ρ c main_arg8 (by decide)).trans (W3_arg8 m ρ c)
theorem W4_arg9 : W4 m ρ c (Proc.devRef .tc main_arg9) = (m ((c : Thread nD τ).loc main_arg9)) :=
  (W4_of_ne m ρ c main_arg9 (by decide)).trans (W3_arg9 m ρ c)
theorem W4_arg10 : W4 m ρ c (Proc.devRef .tc main_arg10) = (m ((c : Thread nD τ).loc main_arg10)) :=
  (W4_of_ne m ρ c main_arg10 (by decide)).trans (W3_arg10 m ρ c)
theorem W4_arg11 : W4 m ρ c (Proc.devRef .tc main_arg11) = (m ((c : Thread nD τ).loc main_arg11)) :=
  (W4_of_ne m ρ c main_arg11 (by decide)).trans (W3_arg11 m ρ c)
theorem W4_arg12 : W4 m ρ c (Proc.devRef .tc main_arg12) = (m ((c : Thread nD τ).loc main_arg12)) :=
  (W4_of_ne m ρ c main_arg12 (by decide)).trans (W3_arg12 m ρ c)

/-! ### Region 2's entry -/
theorem W5_v45 : W5 m ρ c (Proc.devRef .tc main_v45) = msgSum (S m c) (D m c) (H2 m c) := by
  rw [show W5 m ρ c (Proc.devRef .tc main_v45) = _ from s2_v45 (W4 m ρ c), W4_v1, W4_v3, W4_v35]
theorem W5_v46 : W5 m ρ c (Proc.devRef .tc main_v46) = biasRow (m ((c : Thread nD τ).loc main_arg10)) := by
  rw [show W5 m ρ c (Proc.devRef .tc main_v46) = _ from s2_v46 (W4 m ρ c), W4_arg10]
theorem W5_v11 : W5 m ρ c (Proc.devRef .tc main_v11) = recip (D m c) :=
  (s2_keep_v11 (W4 m ρ c)).trans (W4_v11 m ρ c)
theorem W5_v35 : W5 m ρ c (Proc.devRef .tc main_v35) = H2 m c :=
  (s2_keep_v35 (W4 m ρ c)).trans (W4_v35 m ρ c)
theorem W5_arg8 : W5 m ρ c (Proc.devRef .tc main_arg8) = (m ((c : Thread nD τ).loc main_arg8)) :=
  (s2_keep_arg8 (W4 m ρ c)).trans (W4_arg8 m ρ c)
theorem W5_arg9 : W5 m ρ c (Proc.devRef .tc main_arg9) = (m ((c : Thread nD τ).loc main_arg9)) :=
  (s2_keep_arg9 (W4 m ρ c)).trans (W4_arg9 m ρ c)
theorem W5_arg11 : W5 m ρ c (Proc.devRef .tc main_arg11) = (m ((c : Thread nD τ).loc main_arg11)) :=
  (s2_keep_arg11 (W4 m ρ c)).trans (W4_arg11 m ρ c)
theorem W5_arg12 : W5 m ρ c (Proc.devRef .tc main_arg12) = (m ((c : Thread nD τ).loc main_arg12)) :=
  (s2_keep_arg12 (W4 m ρ c)).trans (W4_arg12 m ρ c)

/-! ### Region 2's exit: the third hidden layer -/
theorem W6_v47 : W6 m ρ c (Proc.devRef .tc main_v47) = H3 m c := by
  rw [show W6 m ρ c (Proc.devRef .tc main_v47) = Sage2.whole (V5 m ρ) c from (W6_arr m ρ c 6).trans (Sage2.final (V5 m ρ) c)]
  unfold Sage2.whole
  show SageSpec.layer (SageSpec.scale (W5 m ρ c (Proc.devRef .tc main_v45)) (W5 m ρ c (Proc.devRef .tc main_v11))) (W5 m ρ c (Proc.devRef .tc main_v35)) (W5 m ρ c (Proc.devRef .tc main_arg8))
    (W5 m ρ c (Proc.devRef .tc main_arg9)) (fun q => W5 m ρ c (Proc.devRef .tc main_v46) (ix2 (0 : Fin 1) q)) = _
  rw [W5_v45, W5_v11, W5_v35, W5_arg8, W5_arg9, W5_v46]
  rfl
theorem W6_arg11 : W6 m ρ c (Proc.devRef .tc main_arg11) = (m ((c : Thread nD τ).loc main_arg11)) :=
  (W6_of_ne m ρ c main_arg11 (by decide)).trans (W5_arg11 m ρ c)
theorem W6_arg12 : W6 m ρ c (Proc.devRef .tc main_arg12) = (m ((c : Thread nD τ).loc main_arg12)) :=
  (W6_of_ne m ρ c main_arg12 (by decide)).trans (W5_arg12 m ρ c)

/-! ### Region 3's entry -/
theorem W7_v48 : W7 m ρ c (Proc.devRef .tc main_v48) = biasRowOut (m ((c : Thread nD τ).loc main_arg12)) := by
  rw [show W7 m ρ c (Proc.devRef .tc main_v48) = _ from s3_v48 (W6 m ρ c), W6_arg12]
theorem W7_v47 : W7 m ρ c (Proc.devRef .tc main_v47) = H3 m c :=
  (s3_keep_v47 (W6 m ρ c)).trans (W6_v47 m ρ c)
theorem W7_arg11 : W7 m ρ c (Proc.devRef .tc main_arg11) = (m ((c : Thread nD τ).loc main_arg11)) :=
  (s3_keep_arg11 (W6 m ρ c)).trans (W6_arg11 m ρ c)

/-! ### The return: the result buffer is the network of the launch arguments -/
theorem W8_v49 : W8 m ρ c (Proc.devRef .tc main_v49) = netScaled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [show W8 m ρ c (Proc.devRef .tc main_v49) = Final.whole (V7 m ρ) c from (W8_arr m ρ c 3).trans (Final.final (V7 m ρ) c)]
  unfold Final.whole
  show DenseLayer.dense (W7 m ρ c (Proc.devRef .tc main_v47)) (W7 m ρ c (Proc.devRef .tc main_arg11)) (fun q => W7 m ρ c (Proc.devRef .tc main_v48) (ix2 (0 : Fin 1) q)) = _
  rw [W7_v47, W7_arg11, W7_v48]
  rfl

end Cert.KernelIdeal.Fold

end
-- ==== Proof.KernelRun.lean ====
/-
  The kernel's program runs, and its result buffer ends at the network of its arguments.

  The program's run from the launch to the return is the regions' launch theorem over its eight segments — four
  stretches of host operations and four kernel regions, each region's proof data taken at the contents its region is
  entered with.  The last thread state holds every unscoped buffer at the last boundary's contents, so the final memory
  is read there: each argument as launched, and the result buffer at the fold's value, which is the network of the
  launch arguments.
-/
import proofs.«171906_j55783035240818_1_alg».proof.Proof.Gen.KernelIdeal.Frame
import proofs.«171906_j55783035240818_1_alg».proof.Proof.KernelFold

set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the program terminates, nothing faulting, with the result buffer at the last
    boundary's contents and every argument array as launched. -/
theorem run_fold : θ_run defs (onTc (τ := τ) (main (F := Ideal))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v49 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

/-- THE KERNEL'S RUN: the result buffer ends at the network of the launch arguments, each layer scaling its summed
    messages by the reciprocal degrees; the arguments end unchanged. -/
theorem run : θ_run defs (onTc (τ := τ) (main (F := Ideal))) ⟨m, fun _ => 0, ρ⟩ (fun r => ∀ c : Dev nD,
      r.2.mem ((c.tc : Thread nD τ).loc main_v49) = Cert.KernelIdeal.Net.netScaled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (Cert.KernelIdeal.Fold.W8_v49 m ρ c), (h c).2⟩) (run_fold m ρ)

end Cert.KernelIdeal.Run

end
-- ==== Proof.RefNet.lean ====
/-
  The reference's result is the network.

  The reference program's run ends with its result at the composed term of its host operations, which the
  generated read-back names one operation at a time.  That term is, three times over, the dense stage's host spelling (SageSpec.host_layer) over the summed messages and the clamped degrees,
  and then one dense layer's host spelling; the gather and scatter operations in it are the ones the network names,
  with the same dimension records.
-/
import proofs.«171906_j55783035240818_1_alg».proof.Proof.Gen.ReferenceIdeal.Run
import proofs.«171906_j55783035240818_1_alg».proof.Proof.Gen.ReferenceIdeal.Read
import proofs.«171906_j55783035240818_1_alg».proof.Proof.Net

set_option maxRecDepth 16384

noncomputable section

namespace Cert.ReferenceIdeal.RefNet

open Cert.ReferenceIdeal Cert.ReferenceIdeal.Facts₀ Cert.ReferenceIdeal.Value Cert.ReferenceIdeal.Read Idealize.ShloMosaic Idealize.ShloMosaic.TcCoe Idealize.SL.Sem
open Idealize.ShloMosaic.ValueIdx
open Cert.KernelIdeal.Net (Edges EdgeVec Feat Col Mat Bias MatOut BiasOut Out)

theorem plain64 : PlainDot.IsPlain dot_S100000x64_S64x64_S100000x64_1_0_0_1_n_n := ⟨rfl, rfl, rfl, rfl, rfl, rfl⟩
theorem plain32 : PlainDot.IsPlain dot_S100000x64_S64x32_S100000x32_1_0_0_1_n_n := ⟨rfl, rfl, rfl, rfl, rfl, rfl⟩

/-- Row 0 of the edge list, as the reference slices it. -/
theorem src_eq (e : Edges) :
    shapeCast S1600000 (extractStridedSlice S1x1600000 ![0, 0] e slices_S2x1600000_S1x1600000_0_0) shapeCasts_S1x1600000_S1600000
      = Cert.KernelIdeal.Net.src e := rfl

/-- Row 1 of the edge list, as the reference slices it. -/
theorem dst_eq (e : Edges) :
    shapeCast S1600000 (extractStridedSlice S1x1600000 ![1, 0] e slices_S2x1600000_S1x1600000_1_0) shapeCasts_S1x1600000_S1600000
      = Cert.KernelIdeal.Net.dst e := rfl

/-- The clamped degrees, as the reference computes them. -/
theorem degMax_eq (d : EdgeVec) :
    maximumf (Host.scatterAdd (F := Ideal) scatter_S100000x1_S1600000x1_S1600000x1_1_0_0_1
        (broadcastInDim S100000x1 ![] bcast_S_S100000x1 (constant (F := Ideal) S_ .f32 0x00000000#32))
        (broadcastInDim S1600000x1 ![0] bcast_S1600000_S1600000x1_0 d)
        (broadcastInDim S1600000x1 ![] bcast_S_S1600000x1 (constant (F := Ideal) S_ .f32 0x3F800000#32)))
      (broadcastInDim S100000x1 ![] bcast_S_S100000x1 (constant (F := Ideal) S_ .f32 0x3F800000#32))
    = Cert.KernelIdeal.Net.degMax d := rfl

/-- The summed messages, as the reference computes them. -/
theorem msgSum_eq (s d : EdgeVec) (h : Feat) :
    Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 d)
      (Host.gather gather_S100000x64_S1600000x1_S1600000x64_1_0_n_n_0_1_164 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
    = Cert.KernelIdeal.Net.msgSum s d h := rfl

/-- One layer, as the reference spells it, is the network's layer. -/
theorem layer_eq (s d : EdgeVec) (h : Feat) (wl wr : Mat) (b : Bias) :
    maximumf (addf (addf
        (Host.dotGeneral dot_S100000x64_S64x64_S100000x64_1_0_0_1_n_n none
          (Host.divf (Cert.KernelIdeal.Net.msgSum s d h) (broadcastInDim S100000x64 ![0, 1] bcast_S100000x1_S100000x64_0_1 (Cert.KernelIdeal.Net.degMax d))) wl)
        (broadcastInDim S100000x64 ![0, 1] bcast_S1x64_S100000x64_0_1 (broadcastInDim S1x64 ![1] bcast_S64_S1x64_1 b)))
        (Host.dotGeneral dot_S100000x64_S64x64_S100000x64_1_0_0_1_n_n none h wr))
      (broadcastInDim S100000x64 ![] bcast_S_S100000x64 (constant (F := Ideal) S_ .f32 0x00000000#32))
    = Cert.KernelIdeal.Net.layerMean s d h wl wr b :=
  SageSpec.host_layer plain64 (Cert.KernelIdeal.Net.msgSum s d h) (Cert.KernelIdeal.Net.degMax d) h wl wr b _ _ _ _

/-- The last dense layer, as the reference spells it. -/
theorem out_eq (h : Feat) (w : MatOut) (b : BiasOut) :
    addf (Host.dotGeneral dot_S100000x64_S64x32_S100000x32_1_0_0_1_n_n none h w)
      (broadcastInDim S100000x32 ![0, 1] bcast_S1x32_S100000x32_0_1 (broadcastInDim S1x32 ![1] bcast_S32_S1x32_1 b))
    = DenseLayer.dense h w (fun q => b (ix1 q)) :=
  DenseLayer.host_dense plain32 h w b _ _

/-- The first hidden layer, as the reference computes it. -/
theorem hidden1 (x0 : Feat) (x1 : Edges) (x2 x3 : Mat) (x4 : Bias) :
    val_main_v28 (F := Ideal) x0 x1 x2 x3 x4 = Cert.KernelIdeal.Net.layerMean (Cert.KernelIdeal.Net.src x1) (Cert.KernelIdeal.Net.dst x1) x0 x2 x3 x4 := by
  have hm : val_main_v13 (F := Ideal) x0 x1 = Cert.KernelIdeal.Net.msgSum (Cert.KernelIdeal.Net.src x1) (Cert.KernelIdeal.Net.dst x1) x0 := rfl
  have hd : val_main_v19 (F := Ideal) x1 = Cert.KernelIdeal.Net.degMax (Cert.KernelIdeal.Net.dst x1) := rfl
  unfold val_main_v28 val_main_v27 val_main_v25 val_main_v22 val_main_v21 val_main_v20 val_main_v24 val_main_v23 val_main_v26
    val_main_call0_v0 val_main_call0_cst
  rw [hm, hd]
  exact layer_eq (Cert.KernelIdeal.Net.src x1) (Cert.KernelIdeal.Net.dst x1) x0 x2 x3 x4

/-- The second hidden layer, as the reference computes it, over the first. -/
theorem hidden2 (x0 : Feat) (x1 : Edges) (x2 x3 : Mat) (x4 : Bias) (x5 x6 : Mat) (x7 : Bias) :
    val_main_v53 (F := Ideal) x0 x1 x2 x3 x4 x5 x6 x7
      = Cert.KernelIdeal.Net.layerMean (Cert.KernelIdeal.Net.src x1) (Cert.KernelIdeal.Net.dst x1) (val_main_v28 (F := Ideal) x0 x1 x2 x3 x4) x5 x6 x7 := by
  have hm : val_main_v38 (F := Ideal) x0 x1 x2 x3 x4
      = Cert.KernelIdeal.Net.msgSum (Cert.KernelIdeal.Net.src x1) (Cert.KernelIdeal.Net.dst x1) (val_main_v28 (F := Ideal) x0 x1 x2 x3 x4) := rfl
  have hd : val_main_v44 (F := Ideal) x1 = Cert.KernelIdeal.Net.degMax (Cert.KernelIdeal.Net.dst x1) := rfl
  unfold val_main_v53 val_main_v52 val_main_v50 val_main_v47 val_main_v46 val_main_v45 val_main_v49 val_main_v48 val_main_v51
    val_main_call1_v0 val_main_call1_cst
  rw [hm, hd]
  exact layer_eq (Cert.KernelIdeal.Net.src x1) (Cert.KernelIdeal.Net.dst x1) (val_main_v28 (F := Ideal) x0 x1 x2 x3 x4) x5 x6 x7

/-- The third hidden layer, as the reference computes it, over the second. -/
theorem hidden3 (x0 : Feat) (x1 : Edges) (x2 x3 : Mat) (x4 : Bias) (x5 x6 : Mat) (x7 : Bias) (x8 x9 : Mat) (x10 : Bias) :
    val_main_v78 (F := Ideal) x0 x1 x2 x3 x4 x5 x6 x7 x8 x9 x10
      = Cert.KernelIdeal.Net.layerMean (Cert.KernelIdeal.Net.src x1) (Cert.KernelIdeal.Net.dst x1) (val_main_v53 (F := Ideal) x0 x1 x2 x3 x4 x5 x6 x7) x8 x9 x10 := by
  have hm : val_main_v63 (F := Ideal) x0 x1 x2 x3 x4 x5 x6 x7
      = Cert.KernelIdeal.Net.msgSum (Cert.KernelIdeal.Net.src x1) (Cert.KernelIdeal.Net.dst x1) (val_main_v53 (F := Ideal) x0 x1 x2 x3 x4 x5 x6 x7) := rfl
  have hd : val_main_v69 (F := Ideal) x1 = Cert.KernelIdeal.Net.degMax (Cert.KernelIdeal.Net.dst x1) := rfl
  unfold val_main_v78 val_main_v77 val_main_v75 val_main_v72 val_main_v71 val_main_v70 val_main_v74 val_main_v73 val_main_v76
    val_main_call2_v0 val_main_call2_cst
  rw [hm, hd]
  exact layer_eq (Cert.KernelIdeal.Net.src x1) (Cert.KernelIdeal.Net.dst x1) (val_main_v53 (F := Ideal) x0 x1 x2 x3 x4 x5 x6 x7) x8 x9 x10

/-- The reference's last stage is the network. -/
theorem network (x0 : Feat) (x1 : Edges) (x2 x3 : Mat) (x4 : Bias) (x5 x6 : Mat) (x7 : Bias) (x8 x9 : Mat) (x10 : Bias)
    (x11 : MatOut) (x12 : BiasOut) :
    val_main_v82 (F := Ideal) x0 x1 x2 x3 x4 x5 x6 x7 x8 x9 x10 x11 x12 = Cert.KernelIdeal.Net.net x0 x1 x2 x3 x4 x5 x6 x7 x8 x9 x10 x11 x12 := by
  unfold val_main_v82 val_main_v79 val_main_v81 val_main_v80
  rw [out_eq, hidden3, hidden2, hidden1]
  rfl

/-- THE REFERENCE'S RESULT is the network of its arguments. -/
theorem result_eq (m : (ℓ : Loc nD τ sig) → Buf (Elt Ideal) ℓ) (c : Dev nD) :
    res_main_v82 (F := Ideal) m c
      = Cert.KernelIdeal.Net.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) :=
  (val_main_v82_eq (F := Ideal) m c).trans (network _ _ _ _ _ _ _ _ _ _ _ _ _)

end Cert.ReferenceIdeal.RefNet

end
-- ==== Proof.lean ====
/-
  A three-layer mean-aggregating graph network over 100000 nodes and 1600000 edges, followed by a linear layer: a program
  of four kernel regions (one per layer's dense stage, one for the linear layer) among host gathers and scatter-adds,
  against a plain host program.

  Both programs gather the node features at the edges' sources and scatter-add them at the destinations, count each node's
  in-degree the same way and clamp it below at one.  They differ in three places only.  The kernel's program multiplies
  the summed messages by reciprocals 1 / max(deg, 1) computed once, where the reference divides by max(deg, 1): as
  max(deg, 1) is at least one it is not zero, and on the extended reals a quotient by a non-zero number IS the product
  with its inverse, whatever the dividend.  The kernel adds the bias after both matrix products, the reference between
  them: addition on the extended reals is commutative and associative.  And the kernel rounds its matrix operands to
  bf16 and tiles the rows in twenty blocks, neither of which changes an exact sum.  No law used needs the inputs finite.

  The frames of the two kernel programs are the generated ones; the reference's frame is its generated run with the
  result dropped.  The kernel's result is read off its run boundary by boundary (KernelFold, KernelRun), the
  reference's off its generated run (RefNet), and both are the network `Net.net` of the argument arrays.
-/
import proofs.«171906_j55783035240818_1_alg».proof.Defs
import proofs.«171906_j55783035240818_1_alg».proof.Proof.Gen.Kernel
import proofs.«171906_j55783035240818_1_alg».proof.Proof.Gen.Kernel.Frame
import proofs.«171906_j55783035240818_1_alg».proof.Proof.Gen.KernelIdeal
import proofs.«171906_j55783035240818_1_alg».proof.Proof.Gen.KernelIdeal.Frame
import proofs.«171906_j55783035240818_1_alg».proof.Proof.Gen.ReferenceIdeal
import proofs.«171906_j55783035240818_1_alg».proof.Proof.Gen.Pre_finite_inputs
import proofs.«171906_j55783035240818_1_alg».proof.Proof.Gen.ReferenceIdeal.Run
import proofs.«171906_j55783035240818_1_alg».proof.Proof.KernelRun
import proofs.«171906_j55783035240818_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- From memories that agree on the arguments both programs end with their result at the network of the arguments. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Net.netScaled_eq _ _ _ _ _ _ _ _ _ _ _ _ _), (h c).2⟩)
      (Cert.KernelIdeal.Run.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefNet.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
